-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x16 .f32) (main_arg3 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S1x16 : Shape := ⟨2, ![1, 16]⟩
abbrev S10000x16 : Shape := ⟨2, ![10000, 16]⟩
abbrev S400x9984 : Shape := ⟨2, ![400, 9984]⟩
abbrev S400x128 : Shape := ⟨2, ![400, 128]⟩
abbrev S400x16 : Shape := ⟨2, ![400, 16]⟩
abbrev S9984x16 : Shape := ⟨2, ![9984, 16]⟩
abbrev S16x16 : Shape := ⟨2, ![16, 16]⟩

abbrev nBuf : Space → Nat
  | .hbm => 6
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S1x16, .f32⟩
  | .hbm, ⟨5, _⟩ => ⟨S10000x16, .f32⟩
  | .local _ .vmem, ⟨0, _⟩ => ⟨S10000x128, .f32⟩
  | .local _ .vmem, ⟨1, _⟩ => ⟨S128x16, .f32⟩
  | .local _ .vmem, ⟨2, _⟩ => ⟨S1x16, .f32⟩
  | .local _ .vmem, ⟨3, _⟩ => ⟨S400x9984, .f32⟩
  | .local _ .vmem, ⟨4, _⟩ => ⟨S400x9984, .f32⟩
  | .local _ .vmem, ⟨5, _⟩ => ⟨S400x128, .f32⟩
  | .local _ .vmem, ⟨6, _⟩ => ⟨S400x128, .f32⟩
  | .local _ .vmem, ⟨7, _⟩ => ⟨S400x16, .f32⟩
  | .local _ .vmem, ⟨8, _⟩ => ⟨S400x16, .f32⟩
  | .local _ .vmem, ⟨9, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c78_i32 : BitVec 32 := 78#32
  let c0_i32 : BitVec 32 := 0#32
  ![arg0.toNat, c78_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x9984 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x9984_S400x9984_0_0 : ∀ a, (![0, 0] : Fin 2 → Nat) a + S400x9984.size a ≤ S400x9984.size a
  h_S400x9984 : 0 < S400x9984.numel
  inb_S10000x16_S9984x16_0_0 : ∀ a, (![0, 0] : Fin 2 → Nat) a + S9984x16.size a ≤ S10000x16.size a
  h_S9984x16 : 0 < S9984x16.numel
  inb_S400x128_S400x16_0_0 : ∀ a, (![0, 0] : Fin 2 → Nat) a + S400x16.size a ≤ S400x128.size a
  h_S400x16 : 0 < S400x16.numel
  inb_S10000x16_S16x16_9984_0 : ∀ a, (![9984, 0] : Fin 2 → Nat) a + S16x16.size a ≤ S10000x16.size a
  h_S16x16 : 0 < S16x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S400x16_S400x16_0_0 : ∀ a, (![0, 0] : Fin 2 → Nat) a + S400x16.size a ≤ S400x16.size a
  dot_S10000x128_S128x16_S10000x16_1_0_0_1_n_n_wf : DotDims.WF S10000x128 S128x16 S10000x16 [1] [0] [0] [1] [] []
  dot_S400x9984_S9984x16_S400x16_1_0_0_1_n_n_wf : DotDims.WF S400x9984 S9984x16 S400x16 [1] [0] [0] [1] [] []
  dot_S400x16_S16x16_S400x16_1_0_0_1_n_n_wf : DotDims.WF S400x16 S16x16 S400x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S400x9984.size a < S10000x10000.size a
  hwx0_3 : ∀ i : grid0.Coords, EltTy.bits .f32 = 32 ∨ (Rect.unit (s := S10000x10000) (fun a => cc0_transform_3 i a * S400x9984.size a) (fun a => (Pipeline.Clip.of (cc0_transform_3 i a) (S400x9984.size a) (S10000x10000.size a)).extent (S400x9984.size a)) fun a => Pipeline.Clip.inb (Pipeline.Clip.ok_of (hstart0_3 i a))).WholeWords (EltTy.packing .f32)
  hwxs0_3 : ∀ i : grid0.Coords, EltTy.bits .f32 = 32 ∨ (Rect.unit (s := S400x9984) (fun _ => 0) (fun a => (Pipeline.Clip.of (cc0_transform_3 i a) (S400x9984.size a) (S10000x10000.size a)).extent (S400x9984.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S400x128.size a < S10000x10000.size a
  hwx0_4 : ∀ i : grid0.Coords, EltTy.bits .f32 = 32 ∨ (Rect.unit (s := S10000x10000) (fun a => cc0_transform_4 i a * S400x128.size a) (fun a => (Pipeline.Clip.of (cc0_transform_4 i a) (S400x128.size a) (S10000x10000.size a)).extent (S400x128.size a)) fun a => Pipeline.Clip.inb (Pipeline.Clip.ok_of (hstart0_4 i a))).WholeWords (EltTy.packing .f32)
  hwxs0_4 : ∀ i : grid0.Coords, EltTy.bits .f32 = 32 ∨ (Rect.unit (s := S400x128) (fun _ => 0) (fun a => (Pipeline.Clip.of (cc0_transform_4 i a) (S400x128.size a) (S10000x10000.size a)).extent (S400x128.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x16.size a ≤ S10000x16.size a
  hwx0_5 : ∀ i : grid0.Coords, EltTy.bits .f32 = 32 ∨ (Rect.block (s := S10000x16) S400x16.size (cc0_transform_5 i) (hinb0_5 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x9984_S9984x16_S400x16_1_0_0_1_n_n : DotDims S400x9984 S9984x16 S400x16 where
  lhsContracting := [1]
  rhsContracting := [0]
  lhsNonContracting := [0]
  rhsNonContracting := [1]
  lhsBatch := []
  rhsBatch := []
  wf := dot_S400x9984_S9984x16_S400x16_1_0_0_1_n_n_wf
def dot_S400x16_S16x16_S400x16_1_0_0_1_n_n : DotDims S400x16 S16x16 S400x16 where
  lhsContracting := [1]
  rhsContracting := [0]
  lhsNonContracting := [0]
  rhsNonContracting := [1]
  lhsBatch := []
  rhsBatch := []
  wf := dot_S400x16_S16x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_arg1) S400x9984.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_arg1) S400x128.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpec (Memref.whole main_v1) S400x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S1x16 : Shape := ⟨2, ![1, 16]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S10000x16, .f32⟩
  | .hbm, ⟨5, _⟩ => ⟨S10000x16, .f32⟩
  | .hbm, ⟨6, _⟩ => ⟨S1x16, .f32⟩
  | .hbm, ⟨7, _⟩ => ⟨S10000x16, .f32⟩
  | .hbm, ⟨8, _⟩ => ⟨S10000x16, .f32⟩
  | .hbm, ⟨9, _⟩ => ⟨S_, .f32⟩
  | .hbm, ⟨10, _⟩ => ⟨S10000x16, .f32⟩
  | .hbm, ⟨11, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.RegionBits.lean ====
/-
  The kernel's one region, point by point (the program as printed, at the word level; the same text as for the program read over the extended reals).
  The layer out = max (adj · (x · W) + b, 0) is computed on a grid of 25 points, point t producing rows 400 t .. 400 t + 399
  of the result. At the first point the body forms the product x · W (10000 × 16) once and keeps it in a scratch
  buffer; at every point it multiplies the point's 400 rows of adj by that product in two pieces — columns 0 .. 9983
  against the product's rows 0 .. 9983, and columns 9984 .. 9999 against its rows 9984 .. 9999 —, adds the two, adds the
  bias row and clamps at zero.
  The adjacency array reaches the body through two windows: 400 × 9984 blocks at block column 0, and 400 × 128 blocks at
  block column 78, which start at column 9984 and overhang the 10000-wide array; only their first 16 columns come from
  the array, the rest of the staging buffer holds words nothing names, and the body loads only those 16 columns.
  This module states what the body does on any whole staging buffers: at the first point (`sound_first`) the scratch,
  holding anything, ends at the product and the result's buffer at the layer's block computed from it; at a later
  point (`sound_rest`) the scratch is read and kept. It then fixes the bookkeeping of the run: each window's block as
  the region finds it (`iblk`), the two adjacency blocks filled out past the array's end (`blkA`, `blkT`), the scratch's
  value from the first point on (`sVal`), and the invariant between points (`PhiS`): the scratch at anything before
  the first point and at the product after it.
-/
import proofs.«131429_g29755533426825_cont_9to1_2194_32_alg».proof.Proof.Gen.Kernel.Launch
import proofs.«131429_g29755533426825_cont_9to1_2194_32_alg».proof.Proof.Gen.Kernel.Skeleton
import proofs.«131429_g29755533426825_cont_9to1_2194_32_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The branch -/

abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-! ## The body's accesses -/

abbrev rX : Rect S10000x128 := Rect.unit (s := S10000x128) ![0, 0] S10000x128.size inb_S10000x128_S10000x128_0_0
abbrev rW : Rect S128x16 := Rect.unit (s := S128x16) ![0, 0] S128x16.size inb_S128x16_S128x16_0_0
abbrev rS : Rect S10000x16 := Rect.unit (s := S10000x16) ![0, 0] S10000x16.size inb_S10000x16_S10000x16_0_0
abbrev rA : Rect S400x9984 := Rect.unit (s := S400x9984) ![0, 0] S400x9984.size inb_S400x9984_S400x9984_0_0
abbrev rS1 : Rect S10000x16 := Rect.unit (s := S10000x16) ![0, 0] S9984x16.size inb_S10000x16_S9984x16_0_0
abbrev rT : Rect S400x128 := Rect.unit (s := S400x128) ![0, 0] S400x16.size inb_S400x128_S400x16_0_0
abbrev rS2 : Rect S10000x16 := Rect.unit (s := S10000x16) ![9984, 0] S16x16.size inb_S10000x16_S16x16_9984_0
abbrev rB : Rect S1x16 := Rect.unit (s := S1x16) ![0, 0] S1x16.size inb_S1x16_S1x16_0_0
abbrev rO : Rect S400x16 := Rect.unit (s := S400x16) ![0, 0] S400x16.size inb_S400x16_S400x16_0_0

def sOut (x0 : Vec F S10000x128 .f32) (x1 : Vec F S128x16 .f32) : Vec F S10000x16 .f32 :=
  View.canon [⟨rS, k0_pay1 (View.ld x0 rX) (View.ld x1 rW)⟩]

def oOut (x2 : Vec F S1x16 .f32) (x3 : Vec F S400x9984 .f32) (x4 : Vec F S400x128 .f32) (s : Vec F S10000x16 .f32) : Vec F S400x16 .f32 :=
  View.canon [⟨rO, k0_pay2 (View.ld x3 rA) (View.ld s rS1) (View.ld x4 rT) (View.ld s rS2) (View.ld x2 rB)⟩]

theorem coverO (p0 : Vec F S400x16 .f32) (y : S400x16.Idx) :
    ∃ pc ∈ ([⟨rO, p0⟩] : List (View.Piece (Elt F) S400x16 .f32)), y ∈ pc.1.set :=
  View.cover_of_tiled [⟨rO, p0⟩] S400x16.size (by rfl) y

theorem coverS (p0 : Vec F S10000x16 .f32) (y : S10000x16.Idx) :
    ∃ pc ∈ ([⟨rS, p0⟩] : List (View.Piece (Elt F) S10000x16 .f32)), y ∈ pc.1.set :=
  View.cover_of_tiled [⟨rS, p0⟩] S10000x16.size (by rfl) y

set_option maxHeartbeats 1000000 in
theorem sound_rest (c : Dev nD) (E : Set ℕ) (i : grid0.Coords) (hc : ¬cond0 i)
    (arg1 : Memref sig .tc .vmem S10000x128 .f32) (harg1 : arg1.IsWhole) (arg2 : Memref sig .tc .vmem S128x16 .f32) (harg2 : arg2.IsWhole)
    (arg3 : Memref sig .tc .vmem S1x16 .f32) (harg3 : arg3.IsWhole) (arg4 : Memref sig .tc .vmem S400x9984 .f32) (harg4 : arg4.IsWhole)
    (arg5 : Memref sig .tc .vmem S400x128 .f32) (harg5 : arg5.IsWhole) (arg6 : Memref sig .tc .vmem S400x16 .f32) (harg6 : arg6.IsWhole)
    (arg7 : Memref sig .tc .vmem S10000x16 .f32) (harg7 : arg7.IsWhole)
    (x0 : Vec F S10000x128 .f32) (x1 : Vec F S128x16 .f32) (x2 : Vec F S1x16 .f32) (x3 : Vec F S400x9984 .f32) (x4 : Vec F S400x128 .f32) (s : Vec F S10000x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (oOut x2 x3 x4 s)
            ∗ owns (c : Thread nD τ) arg7 fullShare s) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f7, %hf7, H7⟩, Hk⟩
  subst hf0 hf1 hf2 hf3 hf4 hf7
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    exact View.read_writes_eq_canon _ _ _ (coverO _)
  · iexists f7; isplitr; · ipureintro; rfl
    iexact H7

set_option maxHeartbeats 1000000 in
theorem sound_first (c : Dev nD) (E : Set ℕ) (i : grid0.Coords) (hc : cond0 i)
    (arg1 : Memref sig .tc .vmem S10000x128 .f32) (harg1 : arg1.IsWhole) (arg2 : Memref sig .tc .vmem S128x16 .f32) (harg2 : arg2.IsWhole)
    (arg3 : Memref sig .tc .vmem S1x16 .f32) (harg3 : arg3.IsWhole) (arg4 : Memref sig .tc .vmem S400x9984 .f32) (harg4 : arg4.IsWhole)
    (arg5 : Memref sig .tc .vmem S400x128 .f32) (harg5 : arg5.IsWhole) (arg6 : Memref sig .tc .vmem S400x16 .f32) (harg6 : arg6.IsWhole)
    (arg7 : Memref sig .tc .vmem S10000x16 .f32) (harg7 : arg7.IsWhole)
    (x0 : Vec F S10000x128 .f32) (x1 : Vec F S128x16 .f32) (x2 : Vec F S1x16 .f32) (x3 : Vec F S400x9984 .f32) (x4 : Vec F S400x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (oOut x2 x3 x4 (sOut x0 x1))
            ∗ owns (c : Thread nD τ) arg7 fullShare (sOut x0 x1)) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, Hk⟩
  subst hf0 hf1 hf2 hf3 hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    sl_unfold_run_names
    rw [View.readCov_eq_canon_ld _ _ rS1 (coverS _), View.readCov_eq_canon_ld _ _ rS2 (coverS _)]
    exact View.read_writes_eq_canon _ _ _ (coverO _)
  · iexists _; isplitr
    swap; · iexact H7
    ipureintro
    sl_unfold_run_names
    exact View.read_writes_eq_canon _ _ _ (coverS _)

/-! ## The blocks the region finds, and what it leaves -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The filler this proof picks for the part of a clipped block past the array's end; nothing reads it. -/
abbrev zpad (s : Shape) : s.Idx → Elt F .f32 := fun _ => Scalar.ofBits .f32 0#32

/-- The main adjacency block at point `t` (rows 400 t .. 400 t + 399, columns 0 .. 9983). -/
def blkA (c : Dev nD) (t : Fin cfg0.N) : S400x9984.Idx → Elt F .f32 :=
  win0_3.fill (grid0.coords t) (zpad S400x9984) (iblk m c 3 t)
/-- The tail adjacency block at point `t`: its first 16 columns are the array's columns 9984 .. 9999, the rest filler. -/
def blkT (c : Dev nD) (t : Fin cfg0.N) : S400x128.Idx → Elt F .f32 :=
  win0_4.fill (grid0.coords t) (zpad S400x128) (iblk m c 4 t)

/-- The first grid point. -/
abbrev t0 : Fin cfg0.N := ⟨0, by decide⟩

/-- What the scratch holds from the first point on: the product of the features and the weights. -/
def sVal (c : Dev nD) : Vec F S10000x16 .f32 := sOut (iblk m c 0 t0) (iblk m c 1 t0)

abbrev scM : Memref sig .tc .vmem S10000x16 .f32 := Memref.whole cc0_scratch0

/-- The invariant between points: the scratch at anything before the first point, at the product afterwards. -/
def PhiS (c : Dev nD) : ℕ → sProp 𝕄
  | 0 => iprop(∃ d, owns (c : Thread nD τ) scM fullShare d)
  | _ + 1 => owns (c : Thread nD τ) scM fullShare (sVal m c)

theorem PhiS_zero (c : Dev nD) : PhiS m c 0 = iprop(∃ d, owns (c : Thread nD τ) scM fullShare d) := rfl
theorem PhiS_succ (c : Dev nD) (n : ℕ) : PhiS m c (n + 1) = owns (c : Thread nD τ) scM fullShare (sVal m c) := rfl
theorem PhiS_pos (c : Dev nD) (n : ℕ) (h : n ≠ 0) : PhiS m c n = owns (c : Thread nD τ) scM fullShare (sVal m c) := by
  cases n with
  | zero => exact absurd rfl h
  | succ n => rfl

/-- The proof data: the arrays as the region finds them; after the body each input's buffer at its block (a clipped
    one filled out with the filler), the result's at the layer's block; the scratch in the invariant; the adjacency
    array held half by each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blkA m c t
    | ⟨4, _⟩ => blkT m c t
    | ⟨5, _⟩ => oOut (iblk m c 2 t) (blkA m c t) (blkT m c t) (sVal m c)
  Φ t := PhiS m c t.val
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = blkA m c t := by dsimp only [dats]
theorem after0_4 (c : Dev nD) (t : Fin cfg0.N) : (dats m 0 c).after 4 t = blkT m c t := by dsimp only [dats]
theorem after0_5 (c : Dev nD) (t : Fin cfg0.N) :
    (dats m 0 c).after 5 t = oOut (iblk m c 2 t) (blkA m c t) (blkT m c t) (sVal m c) := by dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = owns (c : Thread nD τ) scM fullShare (sVal m c) := by
  dsimp only [dats]; simp only [Fin.val_succ]; rfl

end Cert.Kernel.Region

end
-- ==== Proof.RunBits.lean ====
/-
  The run of the kernel's region (the program as printed, at the word level): from the body at a point to every weakly fair execution of the program.
  What the body finds in each staging buffer: the three whole-array inputs (x, W, the bias row) are fetched once and
  found at every point; the two adjacency windows are fetched at every point, their buffers holding the block on the
  part inside the array and anything past it; the result's buffer holds anything, being written back at every point.
  The body's result does not depend on what lies past the array's end: the main window is never actually cut
  (`fillA`), and of the tail window the body loads only the 16 columns that come from the array (`ldT_fill`).
  With that, the body at any point (`sound_body`) is the first-point or the later-point statement, by whether the
  point is the first; the adjacency array, read through two windows, is held half by each (`hsplit`); and the launch
  gives the run (`run_main`). Read at the arguments (`run_frame`): an input window's array is never written, the bias
  array is no window's and the one host operation before the region writes only its reshaped copy — so all four
  argument arrays end as launched, and the result array ends at what the write-backs of the 25 points leave.
-/
import proofs.«131429_g29755533426825_cont_9to1_2194_32_alg».proof.Proof.RegionBits

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in each staging buffer -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

theorem before0_3 (c : Dev nD) (t : Fin cfg0.N) (d) :
    (dats m 0 c).before 3 t d = win0_3.fill (grid0.coords t) d (iblk m c 3 t) := by
  rw [(dats m 0 c).before_fetched 3 t (fetch0_3 t) d]; unfold Dat.fetched Dat.blockOf iblk; rw [A_eq]; try rfl
theorem before0_4 (c : Dev nD) (t : Fin cfg0.N) (d) :
    (dats m 0 c).before 4 t d = win0_4.fill (grid0.coords t) d (iblk m c 4 t) := by
  rw [(dats m 0 c).before_fetched 4 t (fetch0_4 t) d]; unfold Dat.fetched Dat.blockOf iblk; rw [A_eq]; try rfl

theorem before0_5 (c : Dev nD) (t : Fin cfg0.N) (d) : (dats m 0 c).before 5 t d = d :=
  (dats m 0 c).before_out_reset 5 rfl t (by
    by_cases h : t.val = 0
    · exact .inl h
    · exact .inr ⟨h, flush0_5 _⟩) d

/-! ## The filler past the array's end is never read -/

theorem clip3 : ∀ (t : Fin cfg0.N) a, win0_3.clip (grid0.coords t) a = none :=
  (by decide +kernel : ∀ (t : Fin grid0.N) a, win0_3.clip (grid0.coords t) a = none)

theorem fillA (c : Dev nD) (t : Fin cfg0.N) (d : S400x9984.Idx → Elt F .f32) :
    win0_3.fill (grid0.coords t) d (iblk m c 3 t) = blkA m c t := by
  unfold blkA
  funext j
  have hm : win0_3.moved (grid0.coords t) j = true :=
    (win0_3.moved_iff _ j).mpr fun a => by have := (j a).isLt; unfold Window.xsize; rw [clip3 t a]; exact this
  unfold Window.fill; rw [dif_pos hm, dif_pos hm]

theorem xsize4 : ∀ t : Fin cfg0.N, win0_4.xsize (grid0.coords t) 0 = 400 ∧ win0_4.xsize (grid0.coords t) 1 = 16 :=
  (by decide +kernel : ∀ t : Fin grid0.N, win0_4.xsize (grid0.coords t) 0 = 400 ∧ win0_4.xsize (grid0.coords t) 1 = 16)

theorem ldT_fill (t : Fin cfg0.N) (d d' : S400x128.Idx → Elt F .f32) (g : (win0_4.xblock (grid0.coords t)).Idx → Elt F .f32) :
    View.ld (win0_4.fill (grid0.coords t) d g) rT = View.ld (win0_4.fill (grid0.coords t) d' g) rT := by
  funext x
  have hm : win0_4.moved (grid0.coords t) (rT.idx x) = true := (win0_4.moved_iff _ _).mpr fun a => by
    match a with
    | ⟨0, _⟩ =>
      have h := (x 0).isLt
      show 0 + 1 * (x 0).val < win0_4.xsize (grid0.coords t) 0
      rw [(xsize4 t).1]; change (x 0).val < 400 at h; omega
    | ⟨1, _⟩ =>
      have h := (x 1).isLt
      show 0 + 1 * (x 1).val < win0_4.xsize (grid0.coords t) 1
      rw [(xsize4 t).2]; change (x 1).val < 16 at h; omega
  show win0_4.fill _ d g (rT.idx x) = win0_4.fill _ d' g (rT.idx x)
  unfold Window.fill; rw [dif_pos hm, dif_pos hm]

theorem oOut_fill (c : Dev nD) (t : Fin cfg0.N) (x2 : Vec F S1x16 .f32) (d3 : S400x9984.Idx → Elt F .f32) (d4 : S400x128.Idx → Elt F .f32) (s : Vec F S10000x16 .f32) :
    oOut x2 (win0_3.fill (grid0.coords t) d3 (iblk m c 3 t)) (win0_4.fill (grid0.coords t) d4 (iblk m c 4 t)) s
      = oOut x2 (blkA m c t) (blkT m c t) s := by
  rw [fillA]
  unfold oOut blkT
  rw [ldT_fill t d4 (zpad S400x128)]
  rfl

/-! ## The body at any point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the two clipped windows' buffers stated on the part inside the array only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t))))
    ∗ owns (c : Thread nD τ) (st0_5 t) fullShare ((dats m 0 c).after 5 t))

theorem cutA (c : Dev nD) (t : Fin cfg0.N) : win0_3.cut (grid0.coords t) (blkA m c t) = iblk m c 3 t := win0_3.cut_fill _ _ _
theorem cutT (c : Dev nD) (t : Fin cfg0.N) : win0_4.cut (grid0.coords t) (blkT m c t) = iblk m c 4 t := win0_4.cut_fill _ _ _

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl, Phi_castSucc, Phi_succ,
    after0_0, after0_1, after0_2, after0_3, after0_4, after0_5, cutA, cutT]
  by_cases hz : t.val = 0
  · obtain rfl : t = t0 := Fin.ext hz
    rw [show PhiS m c t0.val = PhiS m c 0 from rfl, PhiS_zero]
    iintro ⟨HS, Ho, ⟨%d0, H0⟩, ⟨%d1, H1⟩, ⟨%d2, H2⟩, ⟨%d3, H3⟩, ⟨%d4, H4⟩, ⟨%d5, H5⟩⟩
    iapply (sound_first c Set.univ (grid0.coords t0) ((hcond0 t0).mpr rfl) _ _ _ _ _ _ _ _ _ _ _ _ _ _
      (iblk m c 0 t0) (iblk m c 1 t0) (iblk m c 2 t0) (win0_3.fill (grid0.coords t0) d3 (iblk m c 3 t0)) (win0_4.fill (grid0.coords t0) d4 (iblk m c 4 t0)) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexists d3; iexact H3
    isplitl [H4]; · iexists d4; iexact H4
    rw [show sOut (iblk m c 0 t0) (iblk m c 1 t0) = sVal m c from rfl, oOut_fill]
    iexact H5
  · rw [PhiS_pos m c _ hz]
    iintro ⟨HS, Ho, ⟨%d0, H0⟩, ⟨%d1, H1⟩, ⟨%d2, H2⟩, ⟨%d3, H3⟩, ⟨%d4, H4⟩, ⟨%d5, H5⟩⟩
    iapply (sound_rest c Set.univ (grid0.coords t) (fun h => hz ((hcond0 t).mp h)) _ _ _ _ _ _ _ _ _ _ _ _ _ _
      (iblk m c 0 t) (iblk m c 1 t) (iblk m c 2 t) (win0_3.fill (grid0.coords t) d3 (iblk m c 3 t)) (win0_4.fill (grid0.coords t) d4 (iblk m c 4 t)) (sVal m c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexists d3; iexact H3
    isplitl [H4]; · iexists d4; iexact H4
    rw [oOut_fill]
    iexact H5

/-- The body obligation, at every point. -/
theorem body_obligation (c : Dev nD) : BodyObligationLoose (dats (F := F) m 0 c) (defs₀ (F := F)) Variants.none () Set.univ := fun t => by
  rw [bigSep_W0, bigSep_W0]
  exact sound_body m c t

/-! ## The launch -/

abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The share each window holds of its array. -/
theorem share0 (c : Dev nD) : (dats m 0 c).share 0 = fullShare := by unfold Dat.share; rfl
theorem share1 (c : Dev nD) : (dats m 0 c).share 1 = fullShare := by unfold Dat.share; rfl
theorem share2 (c : Dev nD) : (dats m 0 c).share 2 = fullShare := by unfold Dat.share; rfl
theorem share3 (c : Dev nD) : (dats m 0 c).share 3 = fullShare.left := by unfold Dat.share; rfl
theorem share4 (c : Dev nD) : (dats m 0 c).share 4 = fullShare.right := by unfold Dat.share; rfl
theorem share5 (c : Dev nD) : (dats m 0 c).share 5 = fullShare := by unfold Dat.share; rfl

/-- The windows' arrays are whole buffers: the pipeline's holdings of them are points-tos of the buffers behind them. -/
theorem arrays_pt (c : Dev nD) (G : (w : Fin cfg0.W) → Buf (Elt F) ((cfg0.win w).arr.view.loc (c : Thread nD τ))) :
    ((dats m 0 c).arrays G : sProp 𝕄)
      = bigSep Finset.univ fun w : Fin cfg0.W => (((c : Thread nD τ).loc (Pipeline.arrRef spec0 w)) ↦{(dats m 0 c).share w} G w : sProp 𝕄) := by
  unfold Dat.arrays
  exact bigSep_congr fun w _ => by rw [(arr_whole0 w).set_eq_univ]

set_option maxHeartbeats 1000000 in
/-- The buffers behind the windows' arrays, dealt among the windows: the adjacency array, read by two windows, half to each. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_pt, bigSep_W0]
  simp only [share0 m c, share1 m c, share2 m c, share3 m c, share4 m c, share5 m c]
  unfold Pipeline.arrBufs
  rw [bigSep_eq_bigSepL_of_eq [main_arg0, main_arg2, main_v0, main_arg1, main_v1] (by decide) (by decide)]
  simp only [bigSepL_cons_cons, bigSepL_singleton]
  refine (show iprop((((c : Thread nD τ).loc main_arg0) ↦{fullShare} V m c main_arg0) ∗ (((c : Thread nD τ).loc main_arg2) ↦{fullShare} V m c main_arg2)
      ∗ (((c : Thread nD τ).loc main_v0) ↦{fullShare} V m c main_v0) ∗ (((c : Thread nD τ).loc main_arg1) ↦{fullShare} V m c main_arg1)
      ∗ (((c : Thread nD τ).loc main_v1) ↦{fullShare} V m c main_v1))
    ⊢ iprop((((c : Thread nD τ).loc main_arg0) ↦{fullShare} V m c main_arg0) ∗ (((c : Thread nD τ).loc main_arg2) ↦{fullShare} V m c main_arg2)
      ∗ (((c : Thread nD τ).loc main_v0) ↦{fullShare} V m c main_v0) ∗ (((c : Thread nD τ).loc main_arg1) ↦{fullShare.left} V m c main_arg1)
      ∗ (((c : Thread nD τ).loc main_arg1) ↦{fullShare.right} V m c main_arg1) ∗ (((c : Thread nD τ).loc main_v1) ↦{fullShare} V m c main_v1)) from ?_)
  iintro ⟨H0, H2, Hv0, H1, Hv1⟩
  ihave H1 := (pointsTo_share (PosShare.mem_left_op_right fullShare)).1 $$ H1
  icases H1 with ⟨H1a, H1b⟩
  isplitl [H0]; · iexact H0
  isplitl [H2]; · iexact H2
  isplitl [Hv0]; · iexact Hv0
  isplitl [H1a]; · iexact H1a
  isplitl [H1b]; · iexact H1b
  iexact Hv1

/-- The final state: every array of the pipeline at what the proof data computes, and the bias array as the region found it. -/
def QC : PUnit × MemSt nD τ sig (Elt F) → Prop := fun r => ∀ c : Dev nD,
  (∀ w : Fin cfg0.W, r.2.mem ((cfg0.win w).arr.view.loc (c : Thread nD τ)) = (dats m 0 c).arrAt w cfg0.N)
    ∧ r.2.mem ((c : Thread nD τ).loc main_arg3) = V m c main_arg3

set_option backward.isDefEq.respectTransparency.types false in
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := body_obligation m) (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [scopedRest0_eq, show (dats m 0 c).Φ 0 = PhiS m c 0 from rfl, PhiS_zero]
      simp only [scM, owns_whole]
      iintro ⟨-, H⟩; iexact H)
    (hout := fun c => by
      rw [scopedRest0_eq, show (dats m 0 c).Φ (Fin.last cfg0.N) = owns (c : Thread nD τ) scM fullShare (sVal m c) from rfl]
      iintro H; isplitr; · iempintro
      have e : (iprop(∃ f : Buf (Elt F) ((c : Thread nD τ).loc cc0_scratch0), ((c : Thread nD τ).loc cc0_scratch0) ↦{fullShare} f) : sProp 𝕄)
          = iprop(∃ d, owns (c : Thread nD τ) scM fullShare d) := by simp only [scM, owns_whole]; try rfl
      rw [e]; iexists _; iexact H)
    (QY := fun c s => s.mem ((c : Thread nD τ).loc main_arg3) = V m c main_arg3)
    (hY := fun c s' => by
      rw [unscopedRest0_eq]
      iintro ⟨-, HU, HSI⟩
      imodintro
      icombine HSI HU gives %h
      isplitr; · ipureintro; exact Buf.eq_of_forall_mem_univ h
      iexact HSI)
    (hQ := fun s h c => ⟨fun w => (h c).1 w, (h c).2⟩)

/-! ## The frame, read off the run -/

/-- The one host operation before the region writes only the reshaped bias: the argument arrays are as launched. -/
theorem V_main_arg0 (c : Dev nD) : V m c main_arg0 = m ((c : Thread nD τ).loc main_arg0) := by
  show StableHlo.after hostOps0 (fun b => m (c, b)) (Proc.devRef .tc main_arg0) = _; after_results
theorem V_main_arg1 (c : Dev nD) : V m c main_arg1 = m ((c : Thread nD τ).loc main_arg1) := by
  show StableHlo.after hostOps0 (fun b => m (c, b)) (Proc.devRef .tc main_arg1) = _; after_results
theorem V_main_arg2 (c : Dev nD) : V m c main_arg2 = m ((c : Thread nD τ).loc main_arg2) := by
  show StableHlo.after hostOps0 (fun b => m (c, b)) (Proc.devRef .tc main_arg2) = _; after_results
theorem V_main_arg3 (c : Dev nD) : V m c main_arg3 = m ((c : Thread nD τ).loc main_arg3) := by
  show StableHlo.after hostOps0 (fun b => m (c, b)) (Proc.devRef .tc main_arg3) = _; after_results

/-- Every weakly fair execution terminates, faults nowhere, leaves the result array at what the proof data computes
    and the four argument arrays as launched: an input window's array is never written, and the bias array is no
    window's. -/
theorem run_frame : θ_run defs (onTc (τ := τ) (main (F := F))) ⟨m, fun _ => 0, ρ⟩ (fun r => ∀ c : Dev nD,
      r.2.mem ((c.tc : Thread nD τ).loc main_v1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 5,
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      (h c).2.trans (V_main_arg3 m c)⟩) (run_main m ρ)

end Cert.Kernel.Region

end
-- ==== Proof.RegionIdeal.lean ====
/-
  The kernel's one region, point by point.
  The layer out = max (adj · (x · W) + b, 0) is computed on a grid of 25 points, point t producing rows 400 t .. 400 t + 399
  of the result. At the first point the body forms the product x · W (10000 × 16) once and keeps it in a scratch
  buffer; at every point it multiplies the point's 400 rows of adj by that product in two pieces — columns 0 .. 9983
  against the product's rows 0 .. 9983, and columns 9984 .. 9999 against its rows 9984 .. 9999 —, adds the two, adds the
  bias row and clamps at zero.
  The adjacency array reaches the body through two windows: 400 × 9984 blocks at block column 0, and 400 × 128 blocks at
  block column 78, which start at column 9984 and overhang the 10000-wide array; only their first 16 columns come from
  the array, the rest of the staging buffer holds words nothing names, and the body loads only those 16 columns.
  This module states what the body does on any whole staging buffers: at the first point (`sound_first`) the scratch,
  holding anything, ends at the product and the result's buffer at the layer's block computed from it; at a later
  point (`sound_rest`) the scratch is read and kept. It then fixes the bookkeeping of the run: each window's block as
  the region finds it (`iblk`), the two adjacency blocks filled out past the array's end (`blkA`, `blkT`), the scratch's
  value from the first point on (`sVal`), and the invariant between points (`PhiS`): the scratch at anything before
  the first point and at the product after it.
-/
import proofs.«131429_g29755533426825_cont_9to1_2194_32_alg».proof.Proof.Gen.KernelIdeal.Launch
import proofs.«131429_g29755533426825_cont_9to1_2194_32_alg».proof.Proof.Gen.KernelIdeal.Skeleton
import proofs.«131429_g29755533426825_cont_9to1_2194_32_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The branch -/

abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-! ## The body's accesses -/

abbrev rX : Rect S10000x128 := Rect.unit (s := S10000x128) ![0, 0] S10000x128.size inb_S10000x128_S10000x128_0_0
abbrev rW : Rect S128x16 := Rect.unit (s := S128x16) ![0, 0] S128x16.size inb_S128x16_S128x16_0_0
abbrev rS : Rect S10000x16 := Rect.unit (s := S10000x16) ![0, 0] S10000x16.size inb_S10000x16_S10000x16_0_0
abbrev rA : Rect S400x9984 := Rect.unit (s := S400x9984) ![0, 0] S400x9984.size inb_S400x9984_S400x9984_0_0
abbrev rS1 : Rect S10000x16 := Rect.unit (s := S10000x16) ![0, 0] S9984x16.size inb_S10000x16_S9984x16_0_0
abbrev rT : Rect S400x128 := Rect.unit (s := S400x128) ![0, 0] S400x16.size inb_S400x128_S400x16_0_0
abbrev rS2 : Rect S10000x16 := Rect.unit (s := S10000x16) ![9984, 0] S16x16.size inb_S10000x16_S16x16_9984_0
abbrev rB : Rect S1x16 := Rect.unit (s := S1x16) ![0, 0] S1x16.size inb_S1x16_S1x16_0_0
abbrev rO : Rect S400x16 := Rect.unit (s := S400x16) ![0, 0] S400x16.size inb_S400x16_S400x16_0_0

def sOut (x0 : Vec F S10000x128 .f32) (x1 : Vec F S128x16 .f32) : Vec F S10000x16 .f32 :=
  View.canon [⟨rS, k0_pay1 (View.ld x0 rX) (View.ld x1 rW)⟩]

def oOut (x2 : Vec F S1x16 .f32) (x3 : Vec F S400x9984 .f32) (x4 : Vec F S400x128 .f32) (s : Vec F S10000x16 .f32) : Vec F S400x16 .f32 :=
  View.canon [⟨rO, k0_pay2 (View.ld x3 rA) (View.ld s rS1) (View.ld x4 rT) (View.ld s rS2) (View.ld x2 rB)⟩]

theorem coverO (p0 : Vec F S400x16 .f32) (y : S400x16.Idx) :
    ∃ pc ∈ ([⟨rO, p0⟩] : List (View.Piece (Elt F) S400x16 .f32)), y ∈ pc.1.set :=
  View.cover_of_tiled [⟨rO, p0⟩] S400x16.size (by rfl) y

theorem coverS (p0 : Vec F S10000x16 .f32) (y : S10000x16.Idx) :
    ∃ pc ∈ ([⟨rS, p0⟩] : List (View.Piece (Elt F) S10000x16 .f32)), y ∈ pc.1.set :=
  View.cover_of_tiled [⟨rS, p0⟩] S10000x16.size (by rfl) y

set_option maxHeartbeats 1000000 in
theorem sound_rest (c : Dev nD) (E : Set ℕ) (i : grid0.Coords) (hc : ¬cond0 i)
    (arg1 : Memref sig .tc .vmem S10000x128 .f32) (harg1 : arg1.IsWhole) (arg2 : Memref sig .tc .vmem S128x16 .f32) (harg2 : arg2.IsWhole)
    (arg3 : Memref sig .tc .vmem S1x16 .f32) (harg3 : arg3.IsWhole) (arg4 : Memref sig .tc .vmem S400x9984 .f32) (harg4 : arg4.IsWhole)
    (arg5 : Memref sig .tc .vmem S400x128 .f32) (harg5 : arg5.IsWhole) (arg6 : Memref sig .tc .vmem S400x16 .f32) (harg6 : arg6.IsWhole)
    (arg7 : Memref sig .tc .vmem S10000x16 .f32) (harg7 : arg7.IsWhole)
    (x0 : Vec F S10000x128 .f32) (x1 : Vec F S128x16 .f32) (x2 : Vec F S1x16 .f32) (x3 : Vec F S400x9984 .f32) (x4 : Vec F S400x128 .f32) (s : Vec F S10000x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (oOut x2 x3 x4 s)
            ∗ owns (c : Thread nD τ) arg7 fullShare s) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f7, %hf7, H7⟩, Hk⟩
  subst hf0 hf1 hf2 hf3 hf4 hf7
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    exact View.read_writes_eq_canon _ _ _ (coverO _)
  · iexists f7; isplitr; · ipureintro; rfl
    iexact H7

set_option maxHeartbeats 1000000 in
theorem sound_first (c : Dev nD) (E : Set ℕ) (i : grid0.Coords) (hc : cond0 i)
    (arg1 : Memref sig .tc .vmem S10000x128 .f32) (harg1 : arg1.IsWhole) (arg2 : Memref sig .tc .vmem S128x16 .f32) (harg2 : arg2.IsWhole)
    (arg3 : Memref sig .tc .vmem S1x16 .f32) (harg3 : arg3.IsWhole) (arg4 : Memref sig .tc .vmem S400x9984 .f32) (harg4 : arg4.IsWhole)
    (arg5 : Memref sig .tc .vmem S400x128 .f32) (harg5 : arg5.IsWhole) (arg6 : Memref sig .tc .vmem S400x16 .f32) (harg6 : arg6.IsWhole)
    (arg7 : Memref sig .tc .vmem S10000x16 .f32) (harg7 : arg7.IsWhole)
    (x0 : Vec F S10000x128 .f32) (x1 : Vec F S128x16 .f32) (x2 : Vec F S1x16 .f32) (x3 : Vec F S400x9984 .f32) (x4 : Vec F S400x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (oOut x2 x3 x4 (sOut x0 x1))
            ∗ owns (c : Thread nD τ) arg7 fullShare (sOut x0 x1)) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, Hk⟩
  subst hf0 hf1 hf2 hf3 hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    sl_unfold_run_names
    rw [View.readCov_eq_canon_ld _ _ rS1 (coverS _), View.readCov_eq_canon_ld _ _ rS2 (coverS _)]
    exact View.read_writes_eq_canon _ _ _ (coverO _)
  · iexists _; isplitr
    swap; · iexact H7
    ipureintro
    sl_unfold_run_names
    exact View.read_writes_eq_canon _ _ _ (coverS _)

/-! ## The blocks the region finds, and what it leaves -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The filler this proof picks for the part of a clipped block past the array's end; nothing reads it. -/
abbrev zpad (s : Shape) : s.Idx → Elt F .f32 := fun _ => Scalar.ofBits .f32 0#32

/-- The main adjacency block at point `t` (rows 400 t .. 400 t + 399, columns 0 .. 9983). -/
def blkA (c : Dev nD) (t : Fin cfg0.N) : S400x9984.Idx → Elt F .f32 :=
  win0_3.fill (grid0.coords t) (zpad S400x9984) (iblk m c 3 t)
/-- The tail adjacency block at point `t`: its first 16 columns are the array's columns 9984 .. 9999, the rest filler. -/
def blkT (c : Dev nD) (t : Fin cfg0.N) : S400x128.Idx → Elt F .f32 :=
  win0_4.fill (grid0.coords t) (zpad S400x128) (iblk m c 4 t)

/-- The first grid point. -/
abbrev t0 : Fin cfg0.N := ⟨0, by decide⟩

/-- What the scratch holds from the first point on: the product of the features and the weights. -/
def sVal (c : Dev nD) : Vec F S10000x16 .f32 := sOut (iblk m c 0 t0) (iblk m c 1 t0)

abbrev scM : Memref sig .tc .vmem S10000x16 .f32 := Memref.whole cc0_scratch0

/-- The invariant between points: the scratch at anything before the first point, at the product afterwards. -/
def PhiS (c : Dev nD) : ℕ → sProp 𝕄
  | 0 => iprop(∃ d, owns (c : Thread nD τ) scM fullShare d)
  | _ + 1 => owns (c : Thread nD τ) scM fullShare (sVal m c)

theorem PhiS_zero (c : Dev nD) : PhiS m c 0 = iprop(∃ d, owns (c : Thread nD τ) scM fullShare d) := rfl
theorem PhiS_succ (c : Dev nD) (n : ℕ) : PhiS m c (n + 1) = owns (c : Thread nD τ) scM fullShare (sVal m c) := rfl
theorem PhiS_pos (c : Dev nD) (n : ℕ) (h : n ≠ 0) : PhiS m c n = owns (c : Thread nD τ) scM fullShare (sVal m c) := by
  cases n with
  | zero => exact absurd rfl h
  | succ n => rfl

/-- The proof data: the arrays as the region finds them; after the body each input's buffer at its block (a clipped
    one filled out with the filler), the result's at the layer's block; the scratch in the invariant; the adjacency
    array held half by each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blkA m c t
    | ⟨4, _⟩ => blkT m c t
    | ⟨5, _⟩ => oOut (iblk m c 2 t) (blkA m c t) (blkT m c t) (sVal m c)
  Φ t := PhiS m c t.val
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = blkA m c t := by dsimp only [dats]
theorem after0_4 (c : Dev nD) (t : Fin cfg0.N) : (dats m 0 c).after 4 t = blkT m c t := by dsimp only [dats]
theorem after0_5 (c : Dev nD) (t : Fin cfg0.N) :
    (dats m 0 c).after 5 t = oOut (iblk m c 2 t) (blkA m c t) (blkT m c t) (sVal m c) := by dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = owns (c : Thread nD τ) scM fullShare (sVal m c) := by
  dsimp only [dats]; simp only [Fin.val_succ]; rfl

end Cert.KernelIdeal.Region

end
-- ==== Proof.RunIdeal.lean ====
/-
  The run of the kernel's region: from the body at a point to every weakly fair execution of the program.
  What the body finds in each staging buffer: the three whole-array inputs (x, W, the bias row) are fetched once and
  found at every point; the two adjacency windows are fetched at every point, their buffers holding the block on the
  part inside the array and anything past it; the result's buffer holds anything, being written back at every point.
  The body's result does not depend on what lies past the array's end: the main window is never actually cut
  (`fillA`), and of the tail window the body loads only the 16 columns that come from the array (`ldT_fill`).
  With that, the body at any point (`sound_body`) is the first-point or the later-point statement, by whether the
  point is the first; the adjacency array, read through two windows, is held half by each (`hsplit`); and the launch
  gives the run (`run_main`). Read at the arguments (`run_frame`): an input window's array is never written, the bias
  array is no window's and the one host operation before the region writes only its reshaped copy — so all four
  argument arrays end as launched, and the result array ends at what the write-backs of the 25 points leave.
-/
import proofs.«131429_g29755533426825_cont_9to1_2194_32_alg».proof.Proof.RegionIdeal

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in each staging buffer -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

theorem before0_3 (c : Dev nD) (t : Fin cfg0.N) (d) :
    (dats m 0 c).before 3 t d = win0_3.fill (grid0.coords t) d (iblk m c 3 t) := by
  rw [(dats m 0 c).before_fetched 3 t (fetch0_3 t) d]; unfold Dat.fetched Dat.blockOf iblk; rw [A_eq]; try rfl
theorem before0_4 (c : Dev nD) (t : Fin cfg0.N) (d) :
    (dats m 0 c).before 4 t d = win0_4.fill (grid0.coords t) d (iblk m c 4 t) := by
  rw [(dats m 0 c).before_fetched 4 t (fetch0_4 t) d]; unfold Dat.fetched Dat.blockOf iblk; rw [A_eq]; try rfl

theorem before0_5 (c : Dev nD) (t : Fin cfg0.N) (d) : (dats m 0 c).before 5 t d = d :=
  (dats m 0 c).before_out_reset 5 rfl t (by
    by_cases h : t.val = 0
    · exact .inl h
    · exact .inr ⟨h, flush0_5 _⟩) d

/-! ## The filler past the array's end is never read -/

theorem clip3 : ∀ (t : Fin cfg0.N) a, win0_3.clip (grid0.coords t) a = none :=
  (by decide +kernel : ∀ (t : Fin grid0.N) a, win0_3.clip (grid0.coords t) a = none)

theorem fillA (c : Dev nD) (t : Fin cfg0.N) (d : S400x9984.Idx → Elt F .f32) :
    win0_3.fill (grid0.coords t) d (iblk m c 3 t) = blkA m c t := by
  unfold blkA
  funext j
  have hm : win0_3.moved (grid0.coords t) j = true :=
    (win0_3.moved_iff _ j).mpr fun a => by have := (j a).isLt; unfold Window.xsize; rw [clip3 t a]; exact this
  unfold Window.fill; rw [dif_pos hm, dif_pos hm]

theorem xsize4 : ∀ t : Fin cfg0.N, win0_4.xsize (grid0.coords t) 0 = 400 ∧ win0_4.xsize (grid0.coords t) 1 = 16 :=
  (by decide +kernel : ∀ t : Fin grid0.N, win0_4.xsize (grid0.coords t) 0 = 400 ∧ win0_4.xsize (grid0.coords t) 1 = 16)

theorem ldT_fill (t : Fin cfg0.N) (d d' : S400x128.Idx → Elt F .f32) (g : (win0_4.xblock (grid0.coords t)).Idx → Elt F .f32) :
    View.ld (win0_4.fill (grid0.coords t) d g) rT = View.ld (win0_4.fill (grid0.coords t) d' g) rT := by
  funext x
  have hm : win0_4.moved (grid0.coords t) (rT.idx x) = true := (win0_4.moved_iff _ _).mpr fun a => by
    match a with
    | ⟨0, _⟩ =>
      have h := (x 0).isLt
      show 0 + 1 * (x 0).val < win0_4.xsize (grid0.coords t) 0
      rw [(xsize4 t).1]; change (x 0).val < 400 at h; omega
    | ⟨1, _⟩ =>
      have h := (x 1).isLt
      show 0 + 1 * (x 1).val < win0_4.xsize (grid0.coords t) 1
      rw [(xsize4 t).2]; change (x 1).val < 16 at h; omega
  show win0_4.fill _ d g (rT.idx x) = win0_4.fill _ d' g (rT.idx x)
  unfold Window.fill; rw [dif_pos hm, dif_pos hm]

theorem oOut_fill (c : Dev nD) (t : Fin cfg0.N) (x2 : Vec F S1x16 .f32) (d3 : S400x9984.Idx → Elt F .f32) (d4 : S400x128.Idx → Elt F .f32) (s : Vec F S10000x16 .f32) :
    oOut x2 (win0_3.fill (grid0.coords t) d3 (iblk m c 3 t)) (win0_4.fill (grid0.coords t) d4 (iblk m c 4 t)) s
      = oOut x2 (blkA m c t) (blkT m c t) s := by
  rw [fillA]
  unfold oOut blkT
  rw [ldT_fill t d4 (zpad S400x128)]
  rfl

/-! ## The body at any point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the two clipped windows' buffers stated on the part inside the array only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t))))
    ∗ owns (c : Thread nD τ) (st0_5 t) fullShare ((dats m 0 c).after 5 t))

theorem cutA (c : Dev nD) (t : Fin cfg0.N) : win0_3.cut (grid0.coords t) (blkA m c t) = iblk m c 3 t := win0_3.cut_fill _ _ _
theorem cutT (c : Dev nD) (t : Fin cfg0.N) : win0_4.cut (grid0.coords t) (blkT m c t) = iblk m c 4 t := win0_4.cut_fill _ _ _

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl, Phi_castSucc, Phi_succ,
    after0_0, after0_1, after0_2, after0_3, after0_4, after0_5, cutA, cutT]
  by_cases hz : t.val = 0
  · obtain rfl : t = t0 := Fin.ext hz
    rw [show PhiS m c t0.val = PhiS m c 0 from rfl, PhiS_zero]
    iintro ⟨HS, Ho, ⟨%d0, H0⟩, ⟨%d1, H1⟩, ⟨%d2, H2⟩, ⟨%d3, H3⟩, ⟨%d4, H4⟩, ⟨%d5, H5⟩⟩
    iapply (sound_first c Set.univ (grid0.coords t0) ((hcond0 t0).mpr rfl) _ _ _ _ _ _ _ _ _ _ _ _ _ _
      (iblk m c 0 t0) (iblk m c 1 t0) (iblk m c 2 t0) (win0_3.fill (grid0.coords t0) d3 (iblk m c 3 t0)) (win0_4.fill (grid0.coords t0) d4 (iblk m c 4 t0)) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexists d3; iexact H3
    isplitl [H4]; · iexists d4; iexact H4
    rw [show sOut (iblk m c 0 t0) (iblk m c 1 t0) = sVal m c from rfl, oOut_fill]
    iexact H5
  · rw [PhiS_pos m c _ hz]
    iintro ⟨HS, Ho, ⟨%d0, H0⟩, ⟨%d1, H1⟩, ⟨%d2, H2⟩, ⟨%d3, H3⟩, ⟨%d4, H4⟩, ⟨%d5, H5⟩⟩
    iapply (sound_rest c Set.univ (grid0.coords t) (fun h => hz ((hcond0 t).mp h)) _ _ _ _ _ _ _ _ _ _ _ _ _ _
      (iblk m c 0 t) (iblk m c 1 t) (iblk m c 2 t) (win0_3.fill (grid0.coords t) d3 (iblk m c 3 t)) (win0_4.fill (grid0.coords t) d4 (iblk m c 4 t)) (sVal m c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexists d3; iexact H3
    isplitl [H4]; · iexists d4; iexact H4
    rw [oOut_fill]
    iexact H5

/-- The body obligation, at every point. -/
theorem body_obligation (c : Dev nD) : BodyObligationLoose (dats (F := F) m 0 c) (defs₀ (F := F)) Variants.none () Set.univ := fun t => by
  rw [bigSep_W0, bigSep_W0]
  exact sound_body m c t

/-! ## The launch -/

abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The share each window holds of its array. -/
theorem share0 (c : Dev nD) : (dats m 0 c).share 0 = fullShare := by unfold Dat.share; rfl
theorem share1 (c : Dev nD) : (dats m 0 c).share 1 = fullShare := by unfold Dat.share; rfl
theorem share2 (c : Dev nD) : (dats m 0 c).share 2 = fullShare := by unfold Dat.share; rfl
theorem share3 (c : Dev nD) : (dats m 0 c).share 3 = fullShare.left := by unfold Dat.share; rfl
theorem share4 (c : Dev nD) : (dats m 0 c).share 4 = fullShare.right := by unfold Dat.share; rfl
theorem share5 (c : Dev nD) : (dats m 0 c).share 5 = fullShare := by unfold Dat.share; rfl

/-- The windows' arrays are whole buffers: the pipeline's holdings of them are points-tos of the buffers behind them. -/
theorem arrays_pt (c : Dev nD) (G : (w : Fin cfg0.W) → Buf (Elt F) ((cfg0.win w).arr.view.loc (c : Thread nD τ))) :
    ((dats m 0 c).arrays G : sProp 𝕄)
      = bigSep Finset.univ fun w : Fin cfg0.W => (((c : Thread nD τ).loc (Pipeline.arrRef spec0 w)) ↦{(dats m 0 c).share w} G w : sProp 𝕄) := by
  unfold Dat.arrays
  exact bigSep_congr fun w _ => by rw [(arr_whole0 w).set_eq_univ]

set_option maxHeartbeats 1000000 in
/-- The buffers behind the windows' arrays, dealt among the windows: the adjacency array, read by two windows, half to each. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_pt, bigSep_W0]
  simp only [share0 m c, share1 m c, share2 m c, share3 m c, share4 m c, share5 m c]
  unfold Pipeline.arrBufs
  rw [bigSep_eq_bigSepL_of_eq [main_arg0, main_arg2, main_v0, main_arg1, main_v1] (by decide) (by decide)]
  simp only [bigSepL_cons_cons, bigSepL_singleton]
  refine (show iprop((((c : Thread nD τ).loc main_arg0) ↦{fullShare} V m c main_arg0) ∗ (((c : Thread nD τ).loc main_arg2) ↦{fullShare} V m c main_arg2)
      ∗ (((c : Thread nD τ).loc main_v0) ↦{fullShare} V m c main_v0) ∗ (((c : Thread nD τ).loc main_arg1) ↦{fullShare} V m c main_arg1)
      ∗ (((c : Thread nD τ).loc main_v1) ↦{fullShare} V m c main_v1))
    ⊢ iprop((((c : Thread nD τ).loc main_arg0) ↦{fullShare} V m c main_arg0) ∗ (((c : Thread nD τ).loc main_arg2) ↦{fullShare} V m c main_arg2)
      ∗ (((c : Thread nD τ).loc main_v0) ↦{fullShare} V m c main_v0) ∗ (((c : Thread nD τ).loc main_arg1) ↦{fullShare.left} V m c main_arg1)
      ∗ (((c : Thread nD τ).loc main_arg1) ↦{fullShare.right} V m c main_arg1) ∗ (((c : Thread nD τ).loc main_v1) ↦{fullShare} V m c main_v1)) from ?_)
  iintro ⟨H0, H2, Hv0, H1, Hv1⟩
  ihave H1 := (pointsTo_share (PosShare.mem_left_op_right fullShare)).1 $$ H1
  icases H1 with ⟨H1a, H1b⟩
  isplitl [H0]; · iexact H0
  isplitl [H2]; · iexact H2
  isplitl [Hv0]; · iexact Hv0
  isplitl [H1a]; · iexact H1a
  isplitl [H1b]; · iexact H1b
  iexact Hv1

/-- The final state: every array of the pipeline at what the proof data computes, and the bias array as the region found it. -/
def QC : PUnit × MemSt nD τ sig (Elt F) → Prop := fun r => ∀ c : Dev nD,
  (∀ w : Fin cfg0.W, r.2.mem ((cfg0.win w).arr.view.loc (c : Thread nD τ)) = (dats m 0 c).arrAt w cfg0.N)
    ∧ r.2.mem ((c : Thread nD τ).loc main_arg3) = V m c main_arg3

set_option backward.isDefEq.respectTransparency.types false in
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := body_obligation m) (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [scopedRest0_eq, show (dats m 0 c).Φ 0 = PhiS m c 0 from rfl, PhiS_zero]
      simp only [scM, owns_whole]
      iintro ⟨-, H⟩; iexact H)
    (hout := fun c => by
      rw [scopedRest0_eq, show (dats m 0 c).Φ (Fin.last cfg0.N) = owns (c : Thread nD τ) scM fullShare (sVal m c) from rfl]
      iintro H; isplitr; · iempintro
      have e : (iprop(∃ f : Buf (Elt F) ((c : Thread nD τ).loc cc0_scratch0), ((c : Thread nD τ).loc cc0_scratch0) ↦{fullShare} f) : sProp 𝕄)
          = iprop(∃ d, owns (c : Thread nD τ) scM fullShare d) := by simp only [scM, owns_whole]; try rfl
      rw [e]; iexists _; iexact H)
    (QY := fun c s => s.mem ((c : Thread nD τ).loc main_arg3) = V m c main_arg3)
    (hY := fun c s' => by
      rw [unscopedRest0_eq]
      iintro ⟨-, HU, HSI⟩
      imodintro
      icombine HSI HU gives %h
      isplitr; · ipureintro; exact Buf.eq_of_forall_mem_univ h
      iexact HSI)
    (hQ := fun s h c => ⟨fun w => (h c).1 w, (h c).2⟩)

/-! ## The frame, read off the run -/

/-- The one host operation before the region writes only the reshaped bias: the argument arrays are as launched. -/
theorem V_main_arg0 (c : Dev nD) : V m c main_arg0 = m ((c : Thread nD τ).loc main_arg0) := by
  show StableHlo.after hostOps0 (fun b => m (c, b)) (Proc.devRef .tc main_arg0) = _; after_results
theorem V_main_arg1 (c : Dev nD) : V m c main_arg1 = m ((c : Thread nD τ).loc main_arg1) := by
  show StableHlo.after hostOps0 (fun b => m (c, b)) (Proc.devRef .tc main_arg1) = _; after_results
theorem V_main_arg2 (c : Dev nD) : V m c main_arg2 = m ((c : Thread nD τ).loc main_arg2) := by
  show StableHlo.after hostOps0 (fun b => m (c, b)) (Proc.devRef .tc main_arg2) = _; after_results
theorem V_main_arg3 (c : Dev nD) : V m c main_arg3 = m ((c : Thread nD τ).loc main_arg3) := by
  show StableHlo.after hostOps0 (fun b => m (c, b)) (Proc.devRef .tc main_arg3) = _; after_results

/-- Every weakly fair execution terminates, faults nowhere, leaves the result array at what the proof data computes
    and the four argument arrays as launched: an input window's array is never written, and the bias array is no
    window's. -/
theorem run_frame : θ_run defs (onTc (τ := τ) (main (F := F))) ⟨m, fun _ => 0, ρ⟩ (fun r => ∀ c : Dev nD,
      r.2.mem ((c.tc : Thread nD τ).loc main_v1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 5,
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      (h c).2.trans (V_main_arg3 m c)⟩) (run_main m ρ)

end Cert.KernelIdeal.Region

end
-- ==== Proof.Spec.lean ====
/-
  The mathematics both programs compute, stated once over the extended reals and importing neither program:
  a graph-convolution layer  out = max (adj · (x · W) + b, 0)  with  x : [10000, 128], adj : [10000, 10000],
  W : [128, 16], b : [16].  `support x W k j` is entry (k, j) of the product x · W, a sum over the 128 features;
  `layer x adj W b` at (r, j) is the sum over all 10000 columns k of adj (r, k) · support (k, j), plus b j,
  clamped below at the zero word.  The kernel reaches the same entry with the column sum cut at column 9984
  (`split_columns`): a sum over Fin 10000 is the sum over its first 9984 indices plus the sum over its last 16,
  which holds in any additive commutative monoid, so at infinite entries too.
-/
import Idealize.ShloMosaic.PureOps.Ideal
import Idealize.ShloMosaic.Lib.ValueIdx

noncomputable section

namespace Cert.GraphLayer

open Idealize.ShloMosaic Idealize.ShloMosaic.ValueIdx

abbrev Sx : Shape := ⟨2, ![10000, 128]⟩
abbrev Sadj : Shape := ⟨2, ![10000, 10000]⟩
abbrev Sw : Shape := ⟨2, ![128, 16]⟩
abbrev Sb : Shape := ⟨1, ![16]⟩
abbrev Sout : Shape := ⟨2, ![10000, 16]⟩

/-- Entry (k, j) of the product x · W: the sum over the 128 features f of x (k, f) · W (f, j). -/
def support (x : FVec Ideal Sx .f32) (W : FVec Ideal Sw .f32) (k : Fin 10000) (j : Fin 16) : EReal :=
  ∑ f : Fin 128, x (ix2 k f) * W (ix2 f j)

/-- The layer's result at (r, j): the sum over every column k of adj (r, k) · support (k, j), plus the bias b j,
    clamped below at the zero word. -/
def layer (x : FVec Ideal Sx .f32) (adj : FVec Ideal Sadj .f32) (W : FVec Ideal Sw .f32) (b : FVec Ideal Sb .f32) :
    FVec Ideal Sout .f32 := fun i =>
  max ((∑ k : Fin 10000, adj (ix2 (i 0) k) * support x W k (i 1)) + b (ix1 (i 1))) (Ideal.ofBits .f32 0x00000000#32)

/-- A sum over the 10000 columns is the sum over the first 9984 plus the sum over the last 16. -/
theorem split_columns {M : Type*} [AddCommMonoid M] (g : Fin 10000 → M) :
    ∑ k : Fin 10000, g k
      = (∑ k : Fin 9984, g ⟨k.val, by omega⟩) + ∑ k : Fin 16, g ⟨9984 + k.val, by omega⟩ := by
  have h := Fin.sum_univ_add (M := M) (a := 9984) (b := 16) (fun k => g ⟨k.val, k.isLt⟩)
  refine h.trans ?_
  rfl

end Cert.GraphLayer

end
-- ==== Proof.RefLayer.lean ====
/-
  The reference program computes the layer.  Read at an index (r, j), its last value is
  max (val4 (r, j), zero word), val4 = val1 + val3, val1 (r, j) = ∑ k, adj (r, k) · val0 (k, j),
  val0 (k, j) = ∑ f, x (k, f) · W (f, j), and val3 (r, j) = b j through two broadcasts.  Once the composed
  index functions are identified with the coordinate constructors this is, term by term, the definition of
  `layer`; the zero word is the same word on both sides and is never evaluated.
-/
import proofs.«131429_g29755533426825_cont_9to1_2194_32_alg».proof.Proof.Spec
import proofs.«131429_g29755533426825_cont_9to1_2194_32_alg».proof.Proof.Gen.ReferenceIdeal.Read

noncomputable section

namespace Cert.GraphLayer.Ref

open Idealize.ShloMosaic Idealize.ShloMosaic.ValueIdx Cert.ReferenceIdeal Cert.ReferenceIdeal.Read

/-- At (r, j) the left operand of the outer product is read at (r, k). -/
theorem lidx1_eq (r : Fin 10000) (j : Fin 16) (k : Fin 10000) : lidx_main_v1 (ix2 r j) k = ix2 r k :=
  funext fun a => Fin.ext (by match a with | ⟨0, _⟩ => rfl | ⟨1, _⟩ => rfl)

/-- At (r, j) the right operand of the outer product is read at (k, j). -/
theorem ridx1_eq (r : Fin 10000) (j : Fin 16) (k : Fin 10000) : ridx_main_v1 (ix2 r j) k = ix2 k j :=
  funext fun a => Fin.ext (by match a with | ⟨0, _⟩ => rfl | ⟨1, _⟩ => rfl)

/-- At (k, j) the left operand of the inner product is read at (k, f). -/
theorem lidx0_eq (k : Fin 10000) (j : Fin 16) (f : Fin 128) :
    lidx_main_v0 (ix2 k j) f = ix2 k f :=
  funext fun a => Fin.ext (by match a with | ⟨0, _⟩ => rfl | ⟨1, _⟩ => rfl)

/-- At (k, j) the right operand of the inner product is read at (f, j). -/
theorem ridx0_eq (k : Fin 10000) (j : Fin 16) (f : Fin 128) :
    ridx_main_v0 (ix2 k j) f = ix2 f j :=
  funext fun a => Fin.ext (by match a with | ⟨0, _⟩ => rfl | ⟨1, _⟩ => rfl)

/-- Through the two broadcasts the bias is read at j. -/
theorem idx23_eq (r : Fin 10000) (j : Fin 16) : idx_main_v2 (idx_main_v3 (ix2 r j)) = ix1 j :=
  funext fun a => Fin.ext (by match a with | ⟨0, _⟩ => rfl)

/-- The layer at (r, j), with the coordinates named. -/
theorem layer_apply (x : FVec Ideal Sx .f32) (adj : FVec Ideal Sadj .f32) (W : FVec Ideal Sw .f32)
    (b : FVec Ideal Sb .f32) (r : Fin 10000) (j : Fin 16) :
    layer x adj W b (ix2 r j)
      = max ((∑ k : Fin 10000, adj (ix2 r k) * support x W k j) + b (ix1 j)) (Ideal.ofBits .f32 0x00000000#32) :=
  rfl

/-- Entry (k, j) of the reference's first product is `support x W k j`. -/
theorem val0_eq_support (x : FVec Ideal Sx .f32) (W : FVec Ideal Sw .f32) (k : Fin 10000) (j : Fin 16) :
    val_main_v0 (F := Ideal) x W (ix2 k j) = support x W k j := by
  rw [val_main_v0_apply]
  unfold support
  refine Finset.sum_congr rfl fun f _ => ?_
  rw [lidx0_eq, ridx0_eq]

/-- The reference program's result is the layer. -/
theorem reference_is_layer (x : FVec Ideal Sx .f32) (adj : FVec Ideal Sadj .f32) (W : FVec Ideal Sw .f32)
    (b : FVec Ideal Sb .f32) :
    val_main_v5 (F := Ideal) x adj W b = layer x adj W b := by
  funext i
  obtain ⟨r, j, rfl⟩ : ∃ (r : Fin 10000) (j : Fin 16), i = ix2 r j := ⟨i 0, i 1, eq_ix2 i⟩
  rw [val_main_v5_apply, val_main_v4_apply, val_main_v1_apply, val_main_v3_apply, val_main_v2_apply,
    val_main_call0_v0_apply, val_main_call0_cst_apply, idx23_eq, layer_apply]
  simp only [Ideal.maximumf_def, Ideal.addf_def, Ideal.ofBits_def]
  congr 2
  refine Finset.sum_congr rfl fun k _ => ?_
  rw [lidx1_eq, ridx1_eq, val0_eq_support]

end Cert.GraphLayer.Ref

end
-- ==== Proof.Payloads.lean ====
/-
  The two values the kernel body stores, each read at one entry over the extended reals, and how the second is an
  entry of the layer.

  The first value is the product x · W, a [10000, 128] by [128, 16] matrix product accumulated into zero: its
  entry (k, j) is the sum over the 128 features f of x (k, f) · W (f, j), which is `support x W k j`.

  The second value is one block of 400 output rows.  It adds two matrix products, each accumulated into zero — a
  [400, 9984] block against a [9984, 16] piece, and a [400, 16] block against a [16, 16] piece — then one row of
  16 biases repeated down the 400 rows, and clamps the result below at the zero word.  Its entry (p, j) is
  therefore  max ((∑ k < 9984, a (p, k) · s (k, j)) + (∑ k < 16, a' (p, k) · s' (k, j)) + bias j, 0).

  When the two left blocks are the first 9984 and the last 16 columns of one row r of adj, the two right pieces are
  the first 9984 and the last 16 rows of the product x · W, and the bias row is b, the two partial sums are the two
  halves of the sum over all 10000 columns (`split_columns`), so the entry is `layer x adj W b` at (r, j).  Only
  the associativity and commutativity of addition are used: the statement holds at infinite entries too.
-/
import proofs.«131429_g29755533426825_cont_9to1_2194_32_alg».proof.Proof.Spec
import proofs.«131429_g29755533426825_cont_9to1_2194_32_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.GraphLayer.Payload

open Idealize.ShloMosaic Idealize.ShloMosaic.ValueIdx Cert.KernelIdeal Cert.KernelIdeal.Gen

/-! ## The three matrix products at an entry -/

/-! ### x · W : [10000, 128] by [128, 16] -/

theorem features_product_lhs_row (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide),
    dif_pos (show (0 : Fin S10000x128.rank) ∈ dot_S10000x128_S128x16_S10000x16_1_0_0_1_n_n.lhsNonContracting by decide)]
  rfl
theorem features_product_lhs_col (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q
theorem features_product_rhs_row (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q
theorem features_product_rhs_col (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide),
    dif_pos (show (1 : Fin S128x16.rank) ∈ dot_S10000x128_S128x16_S10000x16_1_0_0_1_n_n.rhsNonContracting by decide)]
  rfl

/-- The product of a [10000, 128] matrix and a [128, 16] matrix, accumulated into zero, read at (k, j):
    the sum over the 128 contraction positions f of the left entry (k, f) times the right entry (f, j). -/
theorem features_product_apply (x : FVec Ideal S10000x128 .f32) (W : FVec Ideal S128x16 .f32) (k : Fin 10000) (j : Fin 16) :
    FloatOps.matmul dot_S10000x128_S128x16_S10000x16_1_0_0_1_n_n none x W
        (constant (F := Ideal) S10000x16 .f32 0x00000000#32) (ix2 k j)
      = ∑ f : Fin 128, x (ix2 k f) * W (ix2 f j) := by
  rw [Ideal.matmul_constant_zero_apply,
    ← Equiv.sum_comp (contrEquiv1 dot_S10000x128_S128x16_S10000x16_1_0_0_1_n_n 128 rfl rfl).symm]
  refine Finset.sum_congr rfl fun f _ => ?_
  have hk := contrEquiv1_symm_val dot_S10000x128_S128x16_S10000x16_1_0_0_1_n_n 128 rfl rfl f
  have el : dot_S10000x128_S128x16_S10000x16_1_0_0_1_n_n.lhsIdx (ix2 k j)
      ((contrEquiv1 dot_S10000x128_S128x16_S10000x16_1_0_0_1_n_n 128 rfl rfl).symm f) = ix2 k f :=
    funext fun a => Fin.ext (by
      match a with
      | ⟨0, _⟩ => exact features_product_lhs_row _ _
      | ⟨1, _⟩ => exact (features_product_lhs_col _ _).trans hk)
  have er : dot_S10000x128_S128x16_S10000x16_1_0_0_1_n_n.rhsIdx (ix2 k j)
      ((contrEquiv1 dot_S10000x128_S128x16_S10000x16_1_0_0_1_n_n 128 rfl rfl).symm f) = ix2 f j :=
    funext fun a => Fin.ext (by
      match a with
      | ⟨0, _⟩ => exact (features_product_rhs_row _ _).trans hk
      | ⟨1, _⟩ => exact features_product_rhs_col _ _)
  rw [el, er]

/-! ### The first 9984 columns : [400, 9984] by [9984, 16] -/

theorem main_product_lhs_row (i : S400x16.Idx) (q : dot_S400x9984_S9984x16_S400x16_1_0_0_1_n_n.contr.Idx) :
    (dot_S400x9984_S9984x16_S400x16_1_0_0_1_n_n.lhsIdx i q 0).val = (i 0).val := by
  unfold DotDims.lhsIdx
  rw [dif_neg (show ¬(0 : Fin S400x9984.rank) ∈ dot_S400x9984_S9984x16_S400x16_1_0_0_1_n_n.lhsBatch by decide),
    dif_pos (show (0 : Fin S400x9984.rank) ∈ dot_S400x9984_S9984x16_S400x16_1_0_0_1_n_n.lhsNonContracting by decide)]
  rfl
theorem main_product_lhs_col (i : S400x16.Idx) (q : dot_S400x9984_S9984x16_S400x16_1_0_0_1_n_n.contr.Idx) :
    (dot_S400x9984_S9984x16_S400x16_1_0_0_1_n_n.lhsIdx i q 1).val = (q ⟨0, by decide⟩).val :=
  dot_S400x9984_S9984x16_S400x16_1_0_0_1_n_n.lhsIdx_val_of_single rfl i q
theorem main_product_rhs_row (i : S400x16.Idx) (q : dot_S400x9984_S9984x16_S400x16_1_0_0_1_n_n.contr.Idx) :
    (dot_S400x9984_S9984x16_S400x16_1_0_0_1_n_n.rhsIdx i q 0).val = (q ⟨0, by decide⟩).val :=
  dot_S400x9984_S9984x16_S400x16_1_0_0_1_n_n.rhsIdx_val_of_single rfl i q
theorem main_product_rhs_col (i : S400x16.Idx) (q : dot_S400x9984_S9984x16_S400x16_1_0_0_1_n_n.contr.Idx) :
    (dot_S400x9984_S9984x16_S400x16_1_0_0_1_n_n.rhsIdx i q 1).val = (i 1).val := by
  unfold DotDims.rhsIdx
  rw [dif_neg (show ¬(1 : Fin S9984x16.rank) ∈ dot_S400x9984_S9984x16_S400x16_1_0_0_1_n_n.rhsBatch by decide),
    dif_pos (show (1 : Fin S9984x16.rank) ∈ dot_S400x9984_S9984x16_S400x16_1_0_0_1_n_n.rhsNonContracting by decide)]
  rfl

/-- The product of a [400, 9984] matrix and a [9984, 16] matrix, accumulated into zero, read at (p, j):
    the sum over the 9984 contraction positions k of the left entry (p, k) times the right entry (k, j). -/
theorem main_product_apply (a : FVec Ideal S400x9984 .f32) (s : FVec Ideal S9984x16 .f32) (p : Fin 400) (j : Fin 16) :
    FloatOps.matmul dot_S400x9984_S9984x16_S400x16_1_0_0_1_n_n none a s
        (constant (F := Ideal) S400x16 .f32 0x00000000#32) (ix2 p j)
      = ∑ k : Fin 9984, a (ix2 p k) * s (ix2 k j) := by
  rw [Ideal.matmul_constant_zero_apply,
    ← Equiv.sum_comp (contrEquiv1 dot_S400x9984_S9984x16_S400x16_1_0_0_1_n_n 9984 rfl rfl).symm]
  refine Finset.sum_congr rfl fun k _ => ?_
  have hk := contrEquiv1_symm_val dot_S400x9984_S9984x16_S400x16_1_0_0_1_n_n 9984 rfl rfl k
  have el : dot_S400x9984_S9984x16_S400x16_1_0_0_1_n_n.lhsIdx (ix2 p j)
      ((contrEquiv1 dot_S400x9984_S9984x16_S400x16_1_0_0_1_n_n 9984 rfl rfl).symm k) = ix2 p k :=
    funext fun a => Fin.ext (by
      match a with
      | ⟨0, _⟩ => exact main_product_lhs_row _ _
      | ⟨1, _⟩ => exact (main_product_lhs_col _ _).trans hk)
  have er : dot_S400x9984_S9984x16_S400x16_1_0_0_1_n_n.rhsIdx (ix2 p j)
      ((contrEquiv1 dot_S400x9984_S9984x16_S400x16_1_0_0_1_n_n 9984 rfl rfl).symm k) = ix2 k j :=
    funext fun a => Fin.ext (by
      match a with
      | ⟨0, _⟩ => exact (main_product_rhs_row _ _).trans hk
      | ⟨1, _⟩ => exact main_product_rhs_col _ _)
  rw [el, er]

/-! ### The last 16 columns : [400, 16] by [16, 16] -/

theorem tail_product_lhs_row (i : S400x16.Idx) (q : dot_S400x16_S16x16_S400x16_1_0_0_1_n_n.contr.Idx) :
    (dot_S400x16_S16x16_S400x16_1_0_0_1_n_n.lhsIdx i q 0).val = (i 0).val := by
  unfold DotDims.lhsIdx
  rw [dif_neg (show ¬(0 : Fin S400x16.rank) ∈ dot_S400x16_S16x16_S400x16_1_0_0_1_n_n.lhsBatch by decide),
    dif_pos (show (0 : Fin S400x16.rank) ∈ dot_S400x16_S16x16_S400x16_1_0_0_1_n_n.lhsNonContracting by decide)]
  rfl
theorem tail_product_lhs_col (i : S400x16.Idx) (q : dot_S400x16_S16x16_S400x16_1_0_0_1_n_n.contr.Idx) :
    (dot_S400x16_S16x16_S400x16_1_0_0_1_n_n.lhsIdx i q 1).val = (q ⟨0, by decide⟩).val :=
  dot_S400x16_S16x16_S400x16_1_0_0_1_n_n.lhsIdx_val_of_single rfl i q
theorem tail_product_rhs_row (i : S400x16.Idx) (q : dot_S400x16_S16x16_S400x16_1_0_0_1_n_n.contr.Idx) :
    (dot_S400x16_S16x16_S400x16_1_0_0_1_n_n.rhsIdx i q 0).val = (q ⟨0, by decide⟩).val :=
  dot_S400x16_S16x16_S400x16_1_0_0_1_n_n.rhsIdx_val_of_single rfl i q
theorem tail_product_rhs_col (i : S400x16.Idx) (q : dot_S400x16_S16x16_S400x16_1_0_0_1_n_n.contr.Idx) :
    (dot_S400x16_S16x16_S400x16_1_0_0_1_n_n.rhsIdx i q 1).val = (i 1).val := by
  unfold DotDims.rhsIdx
  rw [dif_neg (show ¬(1 : Fin S16x16.rank) ∈ dot_S400x16_S16x16_S400x16_1_0_0_1_n_n.rhsBatch by decide),
    dif_pos (show (1 : Fin S16x16.rank) ∈ dot_S400x16_S16x16_S400x16_1_0_0_1_n_n.rhsNonContracting by decide)]
  rfl

/-- The product of a [400, 16] matrix and a [16, 16] matrix, accumulated into zero, read at (p, j):
    the sum over the 16 contraction positions k of the left entry (p, k) times the right entry (k, j). -/
theorem tail_product_apply (a : FVec Ideal S400x16 .f32) (s : FVec Ideal S16x16 .f32) (p : Fin 400) (j : Fin 16) :
    FloatOps.matmul dot_S400x16_S16x16_S400x16_1_0_0_1_n_n none a s
        (constant (F := Ideal) S400x16 .f32 0x00000000#32) (ix2 p j)
      = ∑ k : Fin 16, a (ix2 p k) * s (ix2 k j) := by
  rw [Ideal.matmul_constant_zero_apply,
    ← Equiv.sum_comp (contrEquiv1 dot_S400x16_S16x16_S400x16_1_0_0_1_n_n 16 rfl rfl).symm]
  refine Finset.sum_congr rfl fun k _ => ?_
  have hk := contrEquiv1_symm_val dot_S400x16_S16x16_S400x16_1_0_0_1_n_n 16 rfl rfl k
  have el : dot_S400x16_S16x16_S400x16_1_0_0_1_n_n.lhsIdx (ix2 p j)
      ((contrEquiv1 dot_S400x16_S16x16_S400x16_1_0_0_1_n_n 16 rfl rfl).symm k) = ix2 p k :=
    funext fun a => Fin.ext (by
      match a with
      | ⟨0, _⟩ => exact tail_product_lhs_row _ _
      | ⟨1, _⟩ => exact (tail_product_lhs_col _ _).trans hk)
  have er : dot_S400x16_S16x16_S400x16_1_0_0_1_n_n.rhsIdx (ix2 p j)
      ((contrEquiv1 dot_S400x16_S16x16_S400x16_1_0_0_1_n_n 16 rfl rfl).symm k) = ix2 k j :=
    funext fun a => Fin.ext (by
      match a with
      | ⟨0, _⟩ => exact (tail_product_rhs_row _ _).trans hk
      | ⟨1, _⟩ => exact tail_product_rhs_col _ _)
  rw [el, er]

/-! ## The stored values at an entry -/

/-- The first stored value at (k, j) is entry (k, j) of the product x · W. -/
theorem scratch_apply (x : Vec Ideal S10000x128 .f32) (W : Vec Ideal S128x16 .f32) (k : Fin 10000) (j : Fin 16) :
    k0_pay1 (F := Ideal) x W (ix2 k j) = Cert.GraphLayer.support x W k j := by
  unfold k0_pay1
  rw [shapeCast_self]
  exact features_product_apply x W k j

/-- The second stored value at (p, j): the two partial column sums, plus the bias, clamped below at the zero word. -/
theorem block_apply (a : Vec Ideal S400x9984 .f32) (s : Vec Ideal S9984x16 .f32) (at_ : Vec Ideal S400x16 .f32)
    (st : Vec Ideal S16x16 .f32) (brow : Vec Ideal S1x16 .f32) (p : Fin 400) (j : Fin 16) :
    k0_pay2 (F := Ideal) a s at_ st brow (ix2 p j)
      = max (((∑ k : Fin 9984, a (ix2 p k) * s (ix2 k j)) + ∑ k : Fin 16, at_ (ix2 p k) * st (ix2 k j))
          + brow (ix2 0 j)) (Ideal.ofBits .f32 0x00000000#32) := by
  unfold k0_pay2
  rw [maximumf_apply, addf_apply, addf_apply, broadcast_apply, shapeCast_self,
    broadcastTo_1b_ab_apply]
  refine congrArg₂ max (congrArg₂ (· + ·) (congrArg₂ (· + ·) ?_ ?_) rfl) rfl
  · exact main_product_apply a s p j
  · exact tail_product_apply at_ st p j

/-! ## The block's entry is the layer's entry -/

/-- Row p of the block is row r of the layer.  Suppose the block's two left operands are the first 9984 and the last
    16 columns of row r of adj, its two right operands are the first 9984 and the last 16 rows of x · W, and its bias
    row is b.  Then the block's entry (p, j) is the layer's entry (r, j): the two partial sums are the two halves of
    the sum over all 10000 columns. -/
theorem block_is_layer (x : FVec Ideal Sx .f32) (adj : FVec Ideal Sadj .f32) (W : FVec Ideal Sw .f32)
    (b : FVec Ideal Sb .f32)
    (a : Vec Ideal S400x9984 .f32) (s : Vec Ideal S9984x16 .f32) (at_ : Vec Ideal S400x16 .f32)
    (st : Vec Ideal S16x16 .f32) (brow : Vec Ideal S1x16 .f32) (r : Fin 10000) (p : Fin 400) (j : Fin 16)
    (ha : ∀ k : Fin 9984, a (ix2 p k) = adj (ix2 r ⟨k.val, by omega⟩))
    (hs : ∀ (k : Fin 9984) (j : Fin 16), s (ix2 k j) = support x W ⟨k.val, by omega⟩ j)
    (hat : ∀ k : Fin 16, at_ (ix2 p k) = adj (ix2 r ⟨9984 + k.val, by omega⟩))
    (hst : ∀ (k : Fin 16) (j : Fin 16), st (ix2 k j) = support x W ⟨9984 + k.val, by omega⟩ j)
    (hb : ∀ j : Fin 16, brow (ix2 0 j) = b (ix1 j)) :
    k0_pay2 (F := Ideal) a s at_ st brow (ix2 p j) = layer x adj W b (ix2 r j) := by
  rw [block_apply]
  show _ = max ((∑ k : Fin 10000, adj (ix2 r k) * support x W k j) + b (ix1 j)) (Ideal.ofBits .f32 0x00000000#32)
  rw [split_columns (fun k => adj (ix2 r k) * support x W k j), hb j]
  simp only [ha, hs, hat, hst]

end Cert.GraphLayer.Payload

end
-- ==== Proof.OutputArray.lean ====
/-
  The result array after the run is the layer of the four arguments.

  The grid has 25 points.  Point t stages rows 400 t .. 400 t + 399 of adj in two pieces — columns 0 .. 9983, and
  a piece starting at column 9984 of which only the 16 columns inside the array are moved — together with all of x,
  all of W and the bias as a row, and writes back rows 400 t .. 400 t + 399 of the result.  The scratch holds the
  product x · W from the first point on.  So what point t writes back at (p, j) is the block's entry computed from
  row 400 t + p of adj, the product x · W and the bias: by the block's arithmetic it is the layer's entry
  (400 t + p, j).  Every row r lies in the block of point r / 400, so the blocks cover the array, and the array
  ends holding the layer.
-/
import proofs.«131429_g29755533426825_cont_9to1_2194_32_alg».proof.Proof.RegionIdeal
import proofs.«131429_g29755533426825_cont_9to1_2194_32_alg».proof.Proof.Payloads
import proofs.«131429_g29755533426825_cont_9to1_2194_32_alg».proof.Proof.Spec
import Idealize.ShloMosaic.Lib.Pipeline.Value

noncomputable section

namespace Cert.GraphLayer.Output

open Cert.KernelIdeal Cert.KernelIdeal.Gen Cert.KernelIdeal.Region Idealize.ShloMosaic Idealize.ShloMosaic.TcCoe
  Idealize.ShloMosaic.ValueIdx Idealize.SL.Sem
open Idealize.ShloMosaic.Pipeline (Dat)

variable (m : (ℓ : Loc nD τ sig) → Buf (Elt Ideal) ℓ)

/-! ## The arrays as the region finds them

One host operation runs before the region: the reshape of the bias [16] to the row [1, 16].  It writes no argument,
so the region finds the four arguments as launched, and finds the row holding the bias. -/

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

theorem V_v0 (c : Dev nD) : (V m c main_v0 : S1x16.Idx → Elt Ideal .f32)
    = shapeCast S1x16 (m ((c : Thread nD τ).loc main_arg3) : S16.Idx → Elt Ideal .f32) shapeCasts_S16_S1x16 := by
  dsimp only [V, V0, hostOps0]
  after_results
  rfl

/-- The row the region finds, at column j, is the bias at j. -/
theorem V_v0_apply (c : Dev nD) (j : Fin 16) :
    (V m c main_v0 : S1x16.Idx → Elt Ideal .f32) (ix2 (0 : Fin 1) j)
      = (m ((c : Thread nD τ).loc main_arg3) : S16.Idx → Elt Ideal .f32) (ix1 j) := by
  rw [V_v0]
  exact shapeCast_a_1a_apply _ _ 0 j

/-! ## The grid: 25 points, point t at block row t -/

/-- The block index of each window at point t: the result and the two adjacency windows are at block row t (the
    second adjacency window at block column 78, which starts at column 9984); the other three at block (0, 0). -/
theorem idx_facts : ∀ t : Fin cfg0.N,
    win0_5.index t (0 : Fin 2) = t.val ∧ win0_5.index t (1 : Fin 2) = 0
    ∧ win0_3.index t (0 : Fin 2) = t.val ∧ win0_3.index t (1 : Fin 2) = 0
    ∧ win0_4.index t (0 : Fin 2) = t.val ∧ win0_4.index t (1 : Fin 2) = 78
    ∧ win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What each adjacency window moves at point t: all 400 by 9984 of the first, and the 400 by 16 of the second that
    lie inside the 10000 columns. -/
theorem size_facts : ∀ t : Fin cfg0.N,
    win0_3.xsize (grid0.coords t) (0 : Fin 2) = 400 ∧ win0_3.xsize (grid0.coords t) (1 : Fin 2) = 9984
    ∧ win0_4.xsize (grid0.coords t) (0 : Fin 2) = 400 ∧ win0_4.xsize (grid0.coords t) (1 : Fin 2) = 16 :=
  (by decide +kernel : ∀ t : Fin grid0.N, _)

/-! ## The body's two stores, over variables -/

theorem hz : (![0, 0] : Fin 2 → Nat) = fun _ => 0 := funext fun a => by fin_cases a <;> rfl

/-- The first store leaves the product of its two loads. -/
theorem sOut_apply (X : Vec Ideal S10000x128 .f32) (Wt : Vec Ideal S128x16 .f32) (k : Fin 10000) (j : Fin 16) :
    sOut X Wt (ix2 k j) = support X Wt k j := by
  unfold sOut
  rw [View.canon_unit_zero hz]
  refine (Payload.scratch_apply _ _ k j).trans ?_
  rw [View.ld_unit_zero (S := S10000x128) hz, View.ld_unit_zero (S := S128x16) hz]

/-- The second store leaves the layer's row r in the block's row p, when the block's loads are row r of adj cut at
    column 9984, the product x · W, and the bias. -/
theorem oOut_is_layer (x : FVec Ideal Sx .f32) (adj : FVec Ideal Sadj .f32) (W : FVec Ideal Sw .f32) (b : FVec Ideal Sb .f32)
    (bias : Vec Ideal S1x16 .f32) (A : Vec Ideal S400x9984 .f32) (T : Vec Ideal S400x128 .f32) (s : Vec Ideal S10000x16 .f32)
    (r : Fin 10000) (p : Fin 400) (j : Fin 16)
    (hA : ∀ k : Fin 9984, A (ix2 p k) = adj (ix2 r ⟨k.val, by omega⟩))
    (hT : ∀ k : Fin 16, T (ix2 p ⟨k.val, by omega⟩) = adj (ix2 r ⟨9984 + k.val, by omega⟩))
    (hs : ∀ (k : Fin 10000) (j : Fin 16), s (ix2 k j) = support x W k j)
    (hb : ∀ j : Fin 16, bias (ix2 0 j) = b (ix1 j)) :
    oOut bias A T s (ix2 p j) = layer x adj W b (ix2 r j) := by
  unfold oOut
  rw [View.canon_unit_zero hz]
  refine Payload.block_is_layer x adj W b _ _ _ _ _ r p j ?_ ?_ ?_ ?_ ?_
  · intro k
    rw [View.ld_unit_zero (S := S400x9984) hz]
    exact hA k
  · intro k j'
    have e : rS1.toLoadRect.idx (ix2 k j') = ix2 (⟨k.val, by omega⟩ : Fin 10000) j' := funext fun a => Fin.ext (by
      match a with
      | ⟨0, _⟩ => show 0 + 1 * k.val = k.val; omega
      | ⟨1, _⟩ => show 0 + 1 * j'.val = j'.val; omega)
    show s (rS1.toLoadRect.idx (ix2 k j')) = _
    rw [e]; exact hs _ j'
  · intro k
    have e : rT.toLoadRect.idx (ix2 p k) = ix2 p (⟨k.val, by omega⟩ : Fin 128) := funext fun a => Fin.ext (by
      match a with
      | ⟨0, _⟩ => show 0 + 1 * p.val = p.val; omega
      | ⟨1, _⟩ => show 0 + 1 * k.val = k.val; omega)
    show T (rT.toLoadRect.idx (ix2 p k)) = _
    rw [e]; exact hT k
  · intro k j'
    have e : rS2.toLoadRect.idx (ix2 k j') = ix2 (⟨9984 + k.val, by omega⟩ : Fin 10000) j' := funext fun a => Fin.ext (by
      match a with
      | ⟨0, _⟩ => show 9984 + 1 * k.val = 9984 + k.val; omega
      | ⟨1, _⟩ => show 0 + 1 * j'.val = j'.val; omega)
    show s (rS2.toLoadRect.idx (ix2 k j')) = _
    rw [e]; exact hs _ j'
  · intro j'
    rw [View.ld_unit_zero (S := S1x16) hz]
    exact hb j'

/-! ## The blocks the region finds, as entries of the arguments -/

/-- A block filled from what a transfer moves reads, at an index the transfer moves, what was moved there. -/
theorem fill_apply_of_lt {G : Pipeline.Grid} (w : Pipeline.Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Pipeline.Window.fill
  rw [dif_pos ((w.moved_iff i j).mpr h)]

/-- A rank-2 index with the two given coordinates. -/
theorem eq_ix2_of_val {n0 n1 : Nat} (e : (⟨2, ![n0, n1]⟩ : Shape).Idx) (u : Fin n0) (v : Fin n1)
    (h0 : (e 0).val = u.val) (h1 : (e 1).val = v.val) : e = ix2 u v := by
  funext a
  match a with
  | ⟨0, _⟩ => exact Fin.ext h0
  | ⟨1, _⟩ => exact Fin.ext h1

/-- The feature block at any point is the whole array x. -/
theorem iblk_x (c : Dev nD) (t : Fin cfg0.N) (k : Fin 10000) (f : Fin 128) :
    (iblk m c 0 t : S10000x128.Idx → Elt Ideal .f32) (ix2 k f)
      = (m ((c : Thread nD τ).loc main_arg0) : S10000x128.Idx → Elt Ideal .f32) (ix2 k f) := by
  obtain ⟨-, -, -, -, -, -, e0, e1, -⟩ := idx_facts t
  unfold iblk
  rw [View.read_apply]
  show V m c main_arg0 _ = _
  rw [V_arg0]
  congr 1
  funext a
  apply Fin.ext
  match a with
  | ⟨0, _⟩ => show win0_0.index t (0 : Fin 2) * 10000 + 1 * k.val = k.val; rw [e0]; omega
  | ⟨1, _⟩ => show win0_0.index t (1 : Fin 2) * 128 + 1 * f.val = f.val; rw [e1]; omega

/-- The weight block at any point is the whole array W. -/
theorem iblk_W (c : Dev nD) (t : Fin cfg0.N) (f : Fin 128) (j : Fin 16) :
    (iblk m c 1 t : S128x16.Idx → Elt Ideal .f32) (ix2 f j)
      = (m ((c : Thread nD τ).loc main_arg2) : S128x16.Idx → Elt Ideal .f32) (ix2 f j) := by
  obtain ⟨-, -, -, -, -, -, -, -, e0, e1, -⟩ := idx_facts t
  unfold iblk
  rw [View.read_apply]
  show V m c main_arg2 _ = _
  rw [V_arg2]
  congr 1
  funext a
  apply Fin.ext
  match a with
  | ⟨0, _⟩ => show win0_1.index t (0 : Fin 2) * 128 + 1 * f.val = f.val; rw [e0]; omega
  | ⟨1, _⟩ => show win0_1.index t (1 : Fin 2) * 16 + 1 * j.val = j.val; rw [e1]; omega

/-- The bias block at any point is the bias, as a row. -/
theorem iblk_b (c : Dev nD) (t : Fin cfg0.N) (j : Fin 16) :
    (iblk m c 2 t : S1x16.Idx → Elt Ideal .f32) (ix2 (0 : Fin 1) j)
      = (m ((c : Thread nD τ).loc main_arg3) : S16.Idx → Elt Ideal .f32) (ix1 j) := by
  obtain ⟨-, -, -, -, -, -, -, -, -, -, e0, e1⟩ := idx_facts t
  unfold iblk
  rw [View.read_apply]
  show (V m c main_v0 : S1x16.Idx → Elt Ideal .f32) _ = _
  rw [← V_v0_apply m c j]
  congr 1
  funext a
  apply Fin.ext
  match a with
  | ⟨0, _⟩ => show win0_2.index t (0 : Fin 2) * 1 + 1 * 0 = 0; rw [e0]
  | ⟨1, _⟩ => show win0_2.index t (1 : Fin 2) * 16 + 1 * j.val = j.val; rw [e1]; omega

/-- The first adjacency block at point t, row p, column k < 9984, is adj at row 400 t + p, column k. -/
theorem blkA_apply (c : Dev nD) (t : Fin cfg0.N) (p : Fin 400) (k : Fin 9984) (r : Fin 10000)
    (hr : r.val = 400 * t.val + p.val) :
    blkA m c t (ix2 p k)
      = (m ((c : Thread nD τ).loc main_arg1) : S10000x10000.Idx → Elt Ideal .f32) (ix2 r ⟨k.val, by omega⟩) := by
  obtain ⟨-, -, e0, e1, -⟩ := idx_facts t
  obtain ⟨s0, s1, -, -⟩ := size_facts t
  unfold blkA
  rw [fill_apply_of_lt win0_3 (grid0.coords t) _ _ (ix2 p k) (fun a => by
    match a with
    | ⟨0, _⟩ => show p.val < win0_3.xsize (grid0.coords t) (0 : Fin 2); rw [s0]; exact p.isLt
    | ⟨1, _⟩ => show k.val < win0_3.xsize (grid0.coords t) (1 : Fin 2); rw [s1]; exact k.isLt)]
  unfold iblk
  rw [View.read_apply]
  show V m c main_arg1 _ = _
  rw [V_arg1]
  congr 1
  funext a
  apply Fin.ext
  match a with
  | ⟨0, _⟩ => show win0_3.index t (0 : Fin 2) * 400 + 1 * p.val = r.val; rw [e0, hr]; omega
  | ⟨1, _⟩ => show win0_3.index t (1 : Fin 2) * 9984 + 1 * k.val = k.val; rw [e1]; omega

/-- The second adjacency block at point t, row p, column k < 16, is adj at row 400 t + p, column 9984 + k. -/
theorem blkT_apply (c : Dev nD) (t : Fin cfg0.N) (p : Fin 400) (k : Fin 16) (r : Fin 10000)
    (hr : r.val = 400 * t.val + p.val) :
    blkT m c t (ix2 p (⟨k.val, by omega⟩ : Fin 128))
      = (m ((c : Thread nD τ).loc main_arg1) : S10000x10000.Idx → Elt Ideal .f32) (ix2 r ⟨9984 + k.val, by omega⟩) := by
  obtain ⟨-, -, -, -, e0, e1, -⟩ := idx_facts t
  obtain ⟨-, -, s0, s1⟩ := size_facts t
  unfold blkT
  rw [fill_apply_of_lt win0_4 (grid0.coords t) _ _ (ix2 p (⟨k.val, by omega⟩ : Fin 128)) (fun a => by
    match a with
    | ⟨0, _⟩ => show p.val < win0_4.xsize (grid0.coords t) (0 : Fin 2); rw [s0]; exact p.isLt
    | ⟨1, _⟩ => show k.val < win0_4.xsize (grid0.coords t) (1 : Fin 2); rw [s1]; exact k.isLt)]
  unfold iblk
  rw [View.read_apply]
  show V m c main_arg1 _ = _
  rw [V_arg1]
  refine congrArg (m ((c : Thread nD τ).loc main_arg1) : S10000x10000.Idx → Elt Ideal .f32) (eq_ix2_of_val _ _ _ ?_ ?_)
  · show win0_4.index t (0 : Fin 2) * 400 + 1 * p.val = r.val; omega
  · show win0_4.index t (1 : Fin 2) * 128 + 1 * k.val = 9984 + k.val; omega

/-- The scratch from the first point on, at (k, j), is entry (k, j) of x · W. -/
theorem sVal_apply (c : Dev nD) (k : Fin 10000) (j : Fin 16) :
    sVal m c (ix2 k j)
      = support (m ((c : Thread nD τ).loc main_arg0)) (m ((c : Thread nD τ).loc main_arg2)) k j := by
  unfold sVal
  rw [sOut_apply]
  unfold support
  exact Finset.sum_congr rfl fun f _ => by rw [iblk_x m c t0 k f, iblk_W m c t0 f j]

/-! ## What each point writes back, the cover, and the array after the run -/

/-- Point t writes back rows 400 t .. 400 t + 399 of the layer. -/
theorem flushed_eq (c : Dev nD) (t : Fin cfg0.N) :
    (dats m 0 c).flushed 5 t = ((cfg0.win 5).blk t).view.read (Elt Ideal)
      (layer (m ((c : Thread nD τ).loc main_arg0)) (m ((c : Thread nD τ).loc main_arg1))
        (m ((c : Thread nD τ).loc main_arg2)) (m ((c : Thread nD τ).loc main_arg3))) := by
  show (cfg0.win 5).cut (grid0.coords t) ((dats m 0 c).after 5 t) = _
  rw [after0_5]
  funext y
  obtain ⟨p, j, rfl⟩ : ∃ (p : Fin 400) (j : Fin 16), y = ix2 p j := ⟨y 0, y 1, eq_ix2 y⟩
  obtain ⟨e0, e1, -⟩ := idx_facts t
  have hN : t.val < 25 := Nat.lt_of_lt_of_eq t.isLt N_0
  rw [View.read_apply]
  show oOut (iblk m c 2 t) (blkA m c t) (blkT m c t) (sVal m c) (ix2 p j)
    = layer (m ((c : Thread nD τ).loc main_arg0)) (m ((c : Thread nD τ).loc main_arg1))
        (m ((c : Thread nD τ).loc main_arg2)) (m ((c : Thread nD τ).loc main_arg3))
        (((cfg0.win 5).blk t).view.emb (ix2 p j))
  have er : ((cfg0.win 5).blk t).view.emb (ix2 p j) = ix2 (⟨400 * t.val + p.val, by omega⟩ : Fin 10000) j :=
    funext fun a => Fin.ext (by
      match a with
      | ⟨0, _⟩ => show win0_5.index t (0 : Fin 2) * 400 + 1 * p.val = 400 * t.val + p.val; rw [e0]; omega
      | ⟨1, _⟩ => show win0_5.index t (1 : Fin 2) * 16 + 1 * j.val = j.val; rw [e1]; omega)
  rw [er]
  refine oOut_is_layer (m ((c : Thread nD τ).loc main_arg0)) (m ((c : Thread nD τ).loc main_arg1))
    (m ((c : Thread nD τ).loc main_arg2)) (m ((c : Thread nD τ).loc main_arg3))
    (iblk m c 2 t) (blkA m c t) (blkT m c t) (sVal m c) ⟨400 * t.val + p.val, by omega⟩ p j ?_ ?_ ?_ ?_
  · intro k; exact blkA_apply m c t p k _ rfl
  · intro k; exact blkT_apply m c t p k _ rfl
  · intro k j'; exact sVal_apply m c k j'
  · intro j'; exact iblk_b m c t j'

/-- An index of the result array is in point t's block iff each coordinate is in the block's range on its axis. -/
theorem mem_blk (t : Fin cfg0.N) (i : S10000x16.Idx) :
    i ∈ ((cfg0.win 5).blk t).view.set ↔ ∀ a : Fin 2, win0_5.index t a * S400x16.size a ≤ (i a).val
      ∧ (i a).val < win0_5.index t a * S400x16.size a + S400x16.size a := by
  show i ∈ ((View.whole main_v1).slice (win0_5.rect t)).set ↔ _
  rw [View.set_slice_whole, Rect.mem_set_unit]
  exact Iff.rfl

/-- Every row r is in the block of point r / 400. -/
theorem cover (i : S10000x16.Idx) :
    ∃ t : Fin cfg0.N, (cfg0.win 5).flush t = true ∧ i ∈ ((cfg0.win 5).blk t).view.set := by
  have hi0 : (i 0).val < 10000 := (i 0).isLt
  have hi1 : (i 1).val < 16 := (i 1).isLt
  obtain ⟨t, ht⟩ : ∃ t : Fin cfg0.N, t.val = (i 0).val / 400 :=
    ⟨⟨(i 0).val / 400, by rw [show cfg0.N = 25 from N_0]; omega⟩, rfl⟩
  obtain ⟨e0, e1, -⟩ := idx_facts t
  refine ⟨t, flush0_5 t, ?_⟩
  rw [mem_blk]
  intro a
  match a with
  | ⟨0, _⟩ =>
    show win0_5.index t (0 : Fin 2) * 400 ≤ (i 0).val ∧ (i 0).val < win0_5.index t (0 : Fin 2) * 400 + 400
    rw [e0, ht]; omega
  | ⟨1, _⟩ =>
    show win0_5.index t (1 : Fin 2) * 16 ≤ (i 1).val ∧ (i 1).val < win0_5.index t (1 : Fin 2) * 16 + 16
    rw [e1]; omega

/-- The result array after the run is the layer of the four arguments. -/
theorem final_out (c : Dev nD) :
    (dats (F := Ideal) m 0 c).arrAt 5 cfg0.N
      = layer (m ((c : Thread nD τ).loc main_arg0)) (m ((c : Thread nD τ).loc main_arg1))
          (m ((c : Thread nD τ).loc main_arg2)) (m ((c : Thread nD τ).loc main_arg3)) :=
  (dats m 0 c).arrAt_eq_of_cover 5 _ (fun t _ => flushed_eq m c t) cover

end Cert.GraphLayer.Output

end
-- ==== Proof.lean ====
/-
  The certificate of a graph-convolution layer out = max (adj · (x · W) + b, 0), x : [10000, 128], adj : [10000, 10000],
  W : [128, 16], b : [16], computed by a kernel on a grid of 25 row blocks against the plain composition of two matrix
  products, a bias and a clamp.
  The kernel forms x · W once, at the first grid point, into a scratch buffer, and at every point multiplies 400 rows of
  adj by it in two pieces, columns 0 .. 9983 and columns 9984 .. 9999; the reference contracts all 10000 columns at once.
  Over the extended reals the two agree entry by entry, because a sum over 10000 columns is the sum over the first 9984
  plus the sum over the last 16 — associativity and commutativity of addition only, so no finiteness of the inputs is
  used and the precondition is never opened.
  The three frames: the kernel's region is run point by point (RegionBits / RunBits for the program as printed,
  RegionIdeal / RunIdeal for the program read over the extended reals — one text at two instances), and the reference is
  a straight line of host operations. The idealization rewrote nothing, so `preserves` has nothing to state.
  The value: Spec states the layer as one function of the four arrays; RefLayer shows the reference's term is it;
  Payloads reads the kernel's two stored values at an entry; OutputArray pieces the 25 written-back blocks together.
-/
import proofs.«131429_g29755533426825_cont_9to1_2194_32_alg».proof.Defs
import proofs.«131429_g29755533426825_cont_9to1_2194_32_alg».proof.Proof.Gen.Kernel
import proofs.«131429_g29755533426825_cont_9to1_2194_32_alg».proof.Proof.Gen.KernelIdeal
import proofs.«131429_g29755533426825_cont_9to1_2194_32_alg».proof.Proof.Gen.ReferenceIdeal
import proofs.«131429_g29755533426825_cont_9to1_2194_32_alg».proof.Proof.Gen.ReferenceIdeal.Run
import proofs.«131429_g29755533426825_cont_9to1_2194_32_alg».proof.Proof.Gen.ReferenceIdeal.Read
import proofs.«131429_g29755533426825_cont_9to1_2194_32_alg».proof.Proof.Gen.Pre_finite_inputs
import proofs.«131429_g29755533426825_cont_9to1_2194_32_alg».proof.Proof.RunBits
import proofs.«131429_g29755533426825_cont_9to1_2194_32_alg».proof.Proof.RunIdeal
import proofs.«131429_g29755533426825_cont_9to1_2194_32_alg».proof.Proof.RefLayer
import proofs.«131429_g29755533426825_cont_9to1_2194_32_alg».proof.Proof.OutputArray
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its four argument arrays as launched. -/
theorem frame_kernel [Cert.Kernel.Facts] [Cert.Pre_finite_inputs.Facts] : Cert.frame_Kernel := fun m ρ _ =>
  (θ_run Cert.Kernel.defs _ _).mono (fun _ h c => (h c).2) (Cert.Kernel.Region.run_frame (F := Bits) m ρ)

/-- So does the kernel read over the extended reals. -/
theorem frame_kernelIdeal [Cert.KernelIdeal.Facts] [Cert.Pre_finite_inputs.Facts] : Cert.frame_KernelIdeal := fun m ρ _ =>
  (θ_run Cert.KernelIdeal.defs _ _).mono (fun _ h c => (h c).2) (Cert.KernelIdeal.Region.run_frame (F := Ideal) m ρ)

/-- The reference is a straight line of host operations: its run, with the result dropped. -/
theorem frame_reference [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Over the extended reals both programs end with the layer max (adj · (x · W) + b, 0) of the argument arrays: the
    kernel's result array is the layer block by block, its column sum cut at column 9984 and rejoined; the reference's
    term is the layer by reading its operations at an index. Neither step opens the precondition: a sum over a
    commutative monoid splits at any point, infinite entries or not. -/
theorem algebraic [Cert.KernelIdeal.Facts] [Cert.ReferenceIdeal.Facts] [Cert.Pre_finite_inputs.Facts] : Cert.algebraic_KernelIdeal_ReferenceIdeal := by
  intro m ρ m' ρ' _ hagree
  refine ⟨_, (θ_run Cert.KernelIdeal.defs _ _).mono (fun _ h c => ⟨(h c).1.trans (Cert.GraphLayer.Output.final_out m c), (h c).2⟩)
    (Cert.KernelIdeal.Region.run_frame (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.GraphLayer.Ref.reference_is_layer,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
